-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10x3 : Shape := ⟨3, ![8, 10, 3]⟩
abbrev S8x3x1024 : Shape := ⟨3, ![8, 3, 1024]⟩
abbrev S8x3x4096 : Shape := ⟨3, ![8, 3, 4096]⟩
abbrev S8x4096x3 : Shape := ⟨3, ![8, 4096, 3]⟩
abbrev S_ : Shape := ⟨0, ![]⟩

class Facts : Prop where
  bcast_S_S8x10x3 : S_.BroadcastsInDim S8x10x3 (![] : Fin 0 → Fin S8x10x3.rank)
  reducesTo_S8x10x3_S_d0_1_2 : S8x10x3.ReducesTo [0, 1, 2] S_
  h_S_ : 0 < S_.numel
  bcast_S_S8x3x1024 : S_.BroadcastsInDim S8x3x1024 (![] : Fin 0 → Fin S8x3x1024.rank)
  reducesTo_S8x3x1024_S_d0_1_2 : S8x3x1024.ReducesTo [0, 1, 2] S_
  bcast_S_S8x3x4096 : S_.BroadcastsInDim S8x3x4096 (![] : Fin 0 → Fin S8x3x4096.rank)
  reducesTo_S8x3x4096_S_d0_1_2 : S8x3x4096.ReducesTo [0, 1, 2] S_
  bcast_S_S8x4096x3 : S_.BroadcastsInDim S8x4096x3 (![] : Fin 0 → Fin S8x4096x3.rank)
  reducesTo_S8x4096x3_S_d0_1_2 : S8x4096x3.ReducesTo [0, 1, 2] S_

variable [Facts]

def fn_part1 {F : FTy → Type} [FloatOps F] (main_arg4 : FVec F S8x4096x3 .f32) (main_v13 : IVec S_ 1) (main_v16 : IVec S8x3x4096 1) : IVec S_ 1 :=
  let main_c_5 : IVec S_ 1 := constantI S_ 1 1#1
  let main_v17 : IVec S_ 1 := (fun x v => Host.reduce IntOp.andi x v reducesTo_S8x3x4096_S_d0_1_2 h_S_) main_v16 main_c_5
  let main_v18 : IVec S_ 1 := andi main_v13 main_v17
  let main_v19 : FVec F S8x4096x3 .f32 := Host.absf main_arg4
  let main_cst_6 : FVec F S_ .f32 := constant S_ .f32 0x7F800000#32
  let main_v20 : FVec F S8x4096x3 .f32 := broadcastInDim S8x4096x3 ![] bcast_S_S8x4096x3 main_cst_6
  let main_v21 : IVec S8x4096x3 1 := cmpf .olt main_v19 main_v20
  let main_c_7 : IVec S_ 1 := constantI S_ 1 1#1
  let main_v22 : IVec S_ 1 := (fun x v => Host.reduce IntOp.andi x v reducesTo_S8x4096x3_S_d0_1_2 h_S_) main_v21 main_c_7
  let main_v23 : IVec S_ 1 := andi main_v18 main_v22
  main_v23

def fn {F : FTy → Type} [FloatOps F] (main_arg0 : FVec F S8x10x3 .f32) (main_arg1 : FVec F S8x10x3 .f32) (main_arg2 : FVec F S8x3x1024 .f32) (main_arg3 : FVec F S8x3x4096 .f32) (main_arg4 : FVec F S8x4096x3 .f32) : IVec S_ 1 :=
  let main_v0 : FVec F S8x10x3 .f32 := Host.absf main_arg0
  let main_cst : FVec F S_ .f32 := constant S_ .f32 0x7F800000#32
  let main_v1 : FVec F S8x10x3 .f32 := broadcastInDim S8x10x3 ![] bcast_S_S8x10x3 main_cst
  let main_v2 : IVec S8x10x3 1 := cmpf .olt main_v0 main_v1
  let main_c : IVec S_ 1 := constantI S_ 1 1#1
  let main_v3 : IVec S_ 1 := (fun x v => Host.reduce IntOp.andi x v reducesTo_S8x10x3_S_d0_1_2 h_S_) main_v2 main_c
  let main_v4 : FVec F S8x10x3 .f32 := Host.absf main_arg1
  let main_cst_0 : FVec F S_ .f32 := constant S_ .f32 0x7F800000#32
  let main_v5 : FVec F S8x10x3 .f32 := broadcastInDim S8x10x3 ![] bcast_S_S8x10x3 main_cst_0
  let main_v6 : IVec S8x10x3 1 := cmpf .olt main_v4 main_v5
  let main_c_1 : IVec S_ 1 := constantI S_ 1 1#1
  let main_v7 : IVec S_ 1 := (fun x v => Host.reduce IntOp.andi x v reducesTo_S8x10x3_S_d0_1_2 h_S_) main_v6 main_c_1
  let main_v8 : IVec S_ 1 := andi main_v3 main_v7
  let main_v9 : FVec F S8x3x1024 .f32 := Host.absf main_arg2
  let main_cst_2 : FVec F S_ .f32 := constant S_ .f32 0x7F800000#32
  let main_v10 : FVec F S8x3x1024 .f32 := broadcastInDim S8x3x1024 ![] bcast_S_S8x3x1024 main_cst_2
  let main_v11 : IVec S8x3x1024 1 := cmpf .olt main_v9 main_v10
  let main_c_3 : IVec S_ 1 := constantI S_ 1 1#1
  let main_v12 : IVec S_ 1 := (fun x v => Host.reduce IntOp.andi x v reducesTo_S8x3x1024_S_d0_1_2 h_S_) main_v11 main_c_3
  let main_v13 : IVec S_ 1 := andi main_v8 main_v12
  let main_v14 : FVec F S8x3x4096 .f32 := Host.absf main_arg3
  let main_cst_4 : FVec F S_ .f32 := constant S_ .f32 0x7F800000#32
  let main_v15 : FVec F S8x3x4096 .f32 := broadcastInDim S8x3x4096 ![] bcast_S_S8x3x4096 main_cst_4
  let main_v16 : IVec S8x3x4096 1 := cmpf .olt main_v14 main_v15
  fn_part1 (F := F) main_arg4 main_v13 main_v16
-- ==== Kernel.lean ====
abbrev S8x10x3 : Shape := ⟨3, ![8, 10, 3]⟩
abbrev S8x3x1024 : Shape := ⟨3, ![8, 3, 1024]⟩
abbrev S8x3x4096 : Shape := ⟨3, ![8, 3, 4096]⟩
abbrev S8x4096x3 : Shape := ⟨3, ![8, 4096, 3]⟩
abbrev S_ : Shape := ⟨0, ![]⟩
abbrev S8x1024x3 : Shape := ⟨3, ![8, 1024, 3]⟩
abbrev S1024x8 : Shape := ⟨2, ![1024, 8]⟩
abbrev S2x8x4096 : Shape := ⟨3, ![2, 8, 4096]⟩
abbrev S8x128x3 : Shape := ⟨3, ![8, 128, 3]⟩
abbrev S128x8 : Shape := ⟨2, ![128, 8]⟩
abbrev S1x8x4096 : Shape := ⟨3, ![1, 8, 4096]⟩
abbrev S8x4096 : Shape := ⟨2, ![8, 4096]⟩
abbrev S8x128x1 : Shape := ⟨3, ![8, 128, 1]⟩
abbrev S8x1x4096 : Shape := ⟨3, ![8, 1, 4096]⟩
abbrev S8x128x4096 : Shape := ⟨3, ![8, 128, 4096]⟩
abbrev S8x128 : Shape := ⟨2, ![8, 128]⟩
abbrev S4096x8 : Shape := ⟨2, ![4096, 8]⟩

abbrev nBuf : Space → Nat
  | .hbm => 42
  | .vmem => 14
  | .smem => 0
  | _ => 0

abbrev bufTy : (tb : Table) → Fin (tcTables nBuf tb) → BufTy
  | .hbm, ⟨0, _⟩ => ⟨S8x10x3, .f32⟩
  | .hbm, ⟨1, _⟩ => ⟨S8x10x3, .f32⟩
  | .hbm, ⟨2, _⟩ => ⟨S8x3x1024, .f32⟩
  | .hbm, ⟨3, _⟩ => ⟨S8x3x4096, .f32⟩
  | .hbm, ⟨4, _⟩ => ⟨S8x4096x3, .f32⟩
  | .hbm, ⟨5, _⟩ => ⟨S8x10x3, .f32⟩
  | .hbm, ⟨6, _⟩ => ⟨S8x10x3, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x1024x3, .f32⟩
  | .hbm, ⟨12, _⟩ => ⟨S8x4096x3, .f32⟩
  | .hbm, ⟨13, _⟩ => ⟨S8x3x4096, .f32⟩
  | .hbm, ⟨14, _⟩ => ⟨S1024x8, .f32⟩
  | .hbm, ⟨15, _⟩ => ⟨S2x8x4096, .f32⟩
  | .hbm, ⟨16, _⟩ => ⟨S_, .f32⟩
  | .hbm, ⟨17, _⟩ => ⟨S8x4096, .f32⟩
  | .hbm, ⟨18, _⟩ => ⟨S4096x8, .f32⟩
  | .hbm, ⟨19, _⟩ => ⟨S2x8x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S8x128x3, .f32⟩
  | .local _ .vmem, ⟨1, _⟩ => ⟨S8x128x3, .f32⟩
  | .local _ .vmem, ⟨2, _⟩ => ⟨S8x3x4096, .f32⟩
  | .local _ .vmem, ⟨3, _⟩ => ⟨S128x8, .f32⟩
  | .local _ .vmem, ⟨4, _⟩ => ⟨S128x8, .f32⟩
  | .local _ .vmem, ⟨5, _⟩ => ⟨S1x8x4096, .f32⟩
  | .local _ .vmem, ⟨6, _⟩ => ⟨S1x8x4096, .f32⟩
  | .local _ .vmem, ⟨7, _⟩ => ⟨S8x128x3, .f32⟩
  | .local _ .vmem, ⟨8, _⟩ => ⟨S8x128x3, .f32⟩
  | .local _ .vmem, ⟨9, _⟩ => ⟨S8x3x4096, .f32⟩
  | .local _ .vmem, ⟨10, _⟩ => ⟨S128x8, .f32⟩
  | .local _ .vmem, ⟨11, _⟩ => ⟨S128x8, .f32⟩
  | .local _ .vmem, ⟨12, _⟩ => ⟨S1x8x4096, .f32⟩
  | .local _ .vmem, ⟨13, _⟩ => ⟨S1x8x4096, .f32⟩
  | _, _ => ⟨S8x10x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_cst_1 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_v15 : Ref sig .tc := ⟨.hbm, 30, rfl⟩
abbrev main_cst_7 : Ref sig .tc := ⟨.hbm, 31, rfl⟩
abbrev main_v16 : Ref sig .tc := ⟨.hbm, 32, rfl⟩
abbrev main_cst_8 : Ref sig .tc := ⟨.hbm, 33, rfl⟩
abbrev main_v17 : Ref sig .tc := ⟨.hbm, 34, rfl⟩
abbrev main_cst_9 : Ref sig .tc := ⟨.hbm, 35, rfl⟩
abbrev main_v18 : Ref sig .tc := ⟨.hbm, 36, rfl⟩
abbrev main_cst_10 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x128x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8x3x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S128x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x8x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  reducesTo_S8x10x3_S_d0_1_2 : S8x10x3.ReducesTo [0, 1, 2] S_
  h_S_ : 0 < S_.numel
  transposes_S8x3x1024_S8x1024x3_0_2_1 : S8x3x1024.Transposes [0, 2, 1] S8x1024x3
  transposes_S8x3x4096_S8x4096x3_0_2_1 : S8x3x4096.Transposes [0, 2, 1] S8x4096x3
  transposes_S8x4096x3_S8x3x4096_0_2_1 : S8x4096x3.Transposes [0, 2, 1] S8x3x4096
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  shapeCasts_S8x4096_S1x8x4096 : S8x4096.ShapeCasts S1x8x4096
  inb_S8x128x3_S8x128x3_0_0_0 : ∀ a, (![0, 0, 0] : Fin 3 → Nat) a + S8x128x3.size a ≤ S8x128x3.size a
  h_S8x128x3 : 0 < S8x128x3.numel
  shapeCasts_S8x128x3_S8x128x3 : S8x128x3.ShapeCasts S8x128x3
  inb_S8x3x4096_S8x3x4096_0_0_0 : ∀ a, (![0, 0, 0] : Fin 3 → Nat) a + S8x3x4096.size a ≤ S8x3x4096.size a
  h_S8x3x4096 : 0 < S8x3x4096.numel
  shapeCasts_S8x3x4096_S8x3x4096 : S8x3x4096.ShapeCasts S8x3x4096
  slices_S8x128x3_o0_0_0_S8x128x1 : S8x128x3.Slices ![0, 0, 0] S8x128x1
  slices_S8x3x4096_o0_0_0_S8x1x4096 : S8x3x4096.Slices ![0, 0, 0] S8x1x4096
  broadcasts_S8x128x1_S8x128x4096 : S8x128x1.Broadcasts S8x128x4096
  broadcasts_S8x1x4096_S8x128x4096 : S8x1x4096.Broadcasts S8x128x4096
  slices_S8x128x3_o0_0_1_S8x128x1 : S8x128x3.Slices ![0, 0, 1] S8x128x1
  slices_S8x3x4096_o0_1_0_S8x1x4096 : S8x3x4096.Slices ![0, 1, 0] S8x1x4096
  slices_S8x128x3_o0_0_2_S8x128x1 : S8x128x3.Slices ![0, 0, 2] S8x128x1
  slices_S8x3x4096_o0_2_0_S8x1x4096 : S8x3x4096.Slices ![0, 2, 0] S8x1x4096
  reduces_S8x128x4096_S8x128 : S8x128x4096.Reduces [2] S8x128
  reduces_S8x128x4096_S8x4096 : S8x128x4096.Reduces [1] S8x4096
  transposes_S8x128_p1_0_S128x8 : S8x128.Transposes [1, 0] S128x8
  inb_S128x8_S128x8_0_0 : ∀ a, (![0, 0] : Fin 2 → Nat) a + S128x8.size a ≤ S128x8.size a
  h_S128x8 : 0 < S128x8.numel
  reducesTo_S2x8x4096_S8x4096_d0 : S2x8x4096.ReducesTo [0] S8x4096
  reducesTo_S1024x8_S_d0_1 : S1024x8.ReducesTo [0, 1] S_
  reducesTo_S8x4096_S_d0_1 : S8x4096.ReducesTo [0, 1] S_
  reducesTo_S4096x8_S_d0_1 : S4096x8.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x3.size a ≤ S8x1024x3.size a
  hwx0_0 : ∀ i : grid0.Coords, EltTy.bits .f32 = 32 ∨ (Rect.block (s := S8x1024x3) S8x128x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x3x4096.size a ≤ S8x3x4096.size a
  hwx0_1 : ∀ i : grid0.Coords, EltTy.bits .f32 = 32 ∨ (Rect.block (s := S8x3x4096) S8x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8.size a ≤ S1024x8.size a
  hwx0_2 : ∀ i : grid0.Coords, EltTy.bits .f32 = 32 ∨ (Rect.block (s := S1024x8) S128x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x4096.size a ≤ S2x8x4096.size a
  hwx0_3 : ∀ i : grid0.Coords, EltTy.bits .f32 = 32 ∨ (Rect.block (s := S2x8x4096) S1x8x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x3.size a ≤ S8x4096x3.size a
  hwx1_0 : ∀ i : grid1.Coords, EltTy.bits .f32 = 32 ∨ (Rect.block (s := S8x4096x3) S8x128x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x3x4096.size a ≤ S8x3x4096.size a
  hwx1_1 : ∀ i : grid1.Coords, EltTy.bits .f32 = 32 ∨ (Rect.block (s := S8x3x4096) S8x3x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x8.size a ≤ S4096x8.size a
  hwx1_2 : ∀ i : grid1.Coords, EltTy.bits .f32 = 32 ∨ (Rect.block (s := S4096x8) S128x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x4096.size a ≤ S2x8x4096.size a
  hwx1_3 : ∀ i : grid1.Coords, EltTy.bits .f32 = 32 ∨ (Rect.block (s := S2x8x4096) S1x8x4096.size (cc1_transform_3 i) (hinb1_3 i)).WholeWords (EltTy.packing .f32)

variable [Facts₀]

abbrev win0_0 : Pipeline.Window sig grid0 :=
  Pipeline.Window.ofSpec (Memref.whole main_v4) S8x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8x3x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S128x8.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S1x8x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S8x128x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8x3x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9_0) S128x8.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9_1) S1x8x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x10x3 : Shape := ⟨3, ![8, 10, 3]⟩
abbrev S8x3x1024 : Shape := ⟨3, ![8, 3, 1024]⟩
abbrev S8x3x4096 : Shape := ⟨3, ![8, 3, 4096]⟩
abbrev S8x4096x3 : Shape := ⟨3, ![8, 4096, 3]⟩
abbrev S_ : Shape := ⟨0, ![]⟩
abbrev S8x1024x3 : Shape := ⟨3, ![8, 1024, 3]⟩
abbrev S8x1024 : Shape := ⟨2, ![8, 1024]⟩
abbrev S8x4096 : Shape := ⟨2, ![8, 4096]⟩
abbrev S8x1024x4096 : Shape := ⟨3, ![8, 1024, 4096]⟩
abbrev S8x1024x1 : Shape := ⟨3, ![8, 1024, 1]⟩
abbrev S8x1x4096 : Shape := ⟨3, ![8, 1, 4096]⟩
abbrev S8x4096x4096 : Shape := ⟨3, ![8, 4096, 4096]⟩
abbrev S8x4096x1 : Shape := ⟨3, ![8, 4096, 1]⟩

abbrev nBuf : Space → Nat
  | .hbm => 79
  | .vmem => 0
  | .smem => 0
  | _ => 0

abbrev bufTy : (tb : Table) → Fin (tcTables nBuf tb) → BufTy
  | .hbm, ⟨0, _⟩ => ⟨S8x10x3, .f32⟩
  | .hbm, ⟨1, _⟩ => ⟨S8x10x3, .f32⟩
  | .hbm, ⟨2, _⟩ => ⟨S8x3x1024, .f32⟩
  | .hbm, ⟨3, _⟩ => ⟨S8x3x4096, .f32⟩
  | .hbm, ⟨4, _⟩ => ⟨S8x4096x3, .f32⟩
  | .hbm, ⟨5, _⟩ => ⟨S8x10x3, .f32⟩
  | .hbm, ⟨6, _⟩ => ⟨S8x10x3, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x1024x3, .f32⟩
  | .hbm, ⟨12, _⟩ => ⟨S8x1024x3, .f32⟩
  | .hbm, ⟨13, _⟩ => ⟨S_, .f32⟩
  | .hbm, ⟨14, _⟩ => ⟨S8x1024, .f32⟩
  | .hbm, ⟨15, _⟩ => ⟨S8x4096x3, .f32⟩
  | .hbm, ⟨16, _⟩ => ⟨S_, .f32⟩
  | .hbm, ⟨17, _⟩ => ⟨S8x4096, .f32⟩
  | .hbm, ⟨18, _⟩ => ⟨S8x1024x4096, .f32⟩
  | .hbm, ⟨19, _⟩ => ⟨S8x1024x1, .f32⟩
  | .hbm, ⟨20, _⟩ => ⟨S8x1x4096, .f32⟩
  | .hbm, ⟨21, _⟩ => ⟨S8x1024x4096, .f32⟩
  | .hbm, ⟨22, _⟩ => ⟨S8x1024x4096, .f32⟩
  | .hbm, ⟨23, _⟩ => ⟨S8x1024x4096, .f32⟩
  | .hbm, ⟨24, _⟩ => ⟨S_, .f32⟩
  | .hbm, ⟨25, _⟩ => ⟨S8x1024x4096, .f32⟩
  | .hbm, ⟨26, _⟩ => ⟨S8x1024x4096, .f32⟩
  | .hbm, ⟨27, _⟩ => ⟨S8x1024x4096, .f32⟩
  | .hbm, ⟨28, _⟩ => ⟨S_, .f32⟩
  | .hbm, ⟨29, _⟩ => ⟨S8x1024x4096, .f32⟩
  | .hbm, ⟨30, _⟩ => ⟨S8x1024x4096, .f32⟩
  | .hbm, ⟨31, _⟩ => ⟨S_, .f32⟩
  | .hbm, ⟨32, _⟩ => ⟨S8x1024, .f32⟩
  | .hbm, ⟨33, _⟩ => ⟨S_, .f32⟩
  | .hbm, ⟨34, _⟩ => ⟨S8x4096, .f32⟩
  | .hbm, ⟨35, _⟩ => ⟨S8x4096x3, .f32⟩
  | .hbm, ⟨36, _⟩ => ⟨S8x4096x3, .f32⟩
  | .hbm, ⟨37, _⟩ => ⟨S_, .f32⟩
  | .hbm, ⟨38, _⟩ => ⟨S8x4096, .f32⟩
  | .hbm, ⟨39, _⟩ => ⟨S8x4096x3, .f32⟩
  | .hbm, ⟨40, _⟩ => ⟨S_, .f32⟩
  | .hbm, ⟨41, _⟩ => ⟨S8x4096, .f32⟩
  | .hbm, ⟨42, _⟩ => ⟨S8x4096x4096, .f32⟩
  | .hbm, ⟨43, _⟩ => ⟨S8x4096x1, .f32⟩
  | .hbm, ⟨44, _⟩ => ⟨S8x1x4096, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S_, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S_, .f32⟩
  | .hbm, ⟨53, _⟩ => ⟨S8x4096x4096, .f32⟩
  | .hbm, ⟨54, _⟩ => ⟨S8x4096x4096, .f32⟩
  | .hbm, ⟨55, _⟩ => ⟨S_, .f32⟩
  | .hbm, ⟨56, _⟩ => ⟨S8x4096, .f32⟩
  | .hbm, ⟨57, _⟩ => ⟨S_, .f32⟩
  | .hbm, ⟨58, _⟩ => ⟨S8x4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S8x10x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_cst_14 : Ref sig .tc := ⟨.hbm, 61, rfl⟩
abbrev main_v41 : Ref sig .tc := ⟨.hbm, 62, rfl⟩
abbrev main_cst_15 : Ref sig .tc := ⟨.hbm, 63, rfl⟩
abbrev main_v42 : Ref sig .tc := ⟨.hbm, 64, rfl⟩
abbrev main_cst_16 : Ref sig .tc := ⟨.hbm, 65, rfl⟩
abbrev main_v43 : Ref sig .tc := ⟨.hbm, 66, rfl⟩
abbrev main_v44 : Ref sig .tc := ⟨.hbm, 67, rfl⟩
abbrev main_cst_17 : Ref sig .tc := ⟨.hbm, 68, rfl⟩
abbrev main_v45 : Ref sig .tc := ⟨.hbm, 69, rfl⟩
abbrev main_cst_18 : Ref sig .tc := ⟨.hbm, 70, rfl⟩
abbrev main_v46 : Ref sig .tc := ⟨.hbm, 71, rfl⟩
abbrev main_cst_19 : Ref sig .tc := ⟨.hbm, 72, rfl⟩
abbrev main_v47 : Ref sig .tc := ⟨.hbm, 73, rfl⟩
abbrev main_cst_20 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩

abbrev nD : Nat := 1
abbrev τ : Topo := Topo.v7x

variable {F : FTy → Type} [FloatOps F]

class Facts₀ : Prop where
  reducesTo_S8x10x3_S_d0_1_2 : S8x10x3.ReducesTo [0, 1, 2] S_
  h_S_ : 0 < S_.numel
  transposes_S8x3x1024_S8x1024x3_0_2_1 : S8x3x1024.Transposes [0, 2, 1] S8x1024x3
  reducesTo_S8x1024x3_S8x1024_d2 : S8x1024x3.ReducesTo [2] S8x1024
  reducesTo_S8x4096x3_S8x4096_d2 : S8x4096x3.ReducesTo [2] S8x4096
  bcast_S8x1024_S8x1024x1_0_1 : S8x1024.BroadcastsInDim S8x1024x1 (![0, 1] : Fin 2 → Fin S8x1024x1.rank)
  bcast_S8x4096_S8x1x4096_0_2 : S8x4096.BroadcastsInDim S8x1x4096 (![0, 2] : Fin 2 → Fin S8x1x4096.rank)
  bcast_S8x1024x1_S8x1024x4096_0_1_2 : S8x1024x1.BroadcastsInDim S8x1024x4096 (![0, 1, 2] : Fin 3 → Fin S8x1024x4096.rank)
  bcast_S8x1x4096_S8x1024x4096_0_1_2 : S8x1x4096.BroadcastsInDim S8x1024x4096 (![0, 1, 2] : Fin 3 → Fin S8x1024x4096.rank)
  bcast_S_S8x1024x4096 : S_.BroadcastsInDim S8x1024x4096 (![] : Fin 0 → Fin S8x1024x4096.rank)
  reducesTo_S8x1024x4096_S8x1024_d2 : S8x1024x4096.ReducesTo [2] S8x1024
  reducesTo_S8x1024x4096_S8x4096_d1 : S8x1024x4096.ReducesTo [1] S8x4096
  transposes_S8x3x4096_S8x4096x3_0_2_1 : S8x3x4096.Transposes [0, 2, 1] S8x4096x3
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x1024_S_d0_1 : S8x1024.ReducesTo [0, 1] S_
  reducesTo_S8x4096_S_d0_1 : S8x4096.ReducesTo [0, 1] S_
  dot_S8x1024x3_S8x4096x3_S8x1024x4096_2_2_1_1_0_0_wf : DotDims.WF S8x1024x3 S8x4096x3 S8x1024x4096 [2] [2] [1] [1] [0] [0]
  dot_S8x4096x3_S8x4096x3_S8x4096x4096_2_2_1_1_0_0_wf : DotDims.WF S8x4096x3 S8x4096x3 S8x4096x4096 [2] [2] [1] [1] [0] [0]

variable [Facts₀]

def dot_S8x1024x3_S8x4096x3_S8x1024x4096_2_2_1_1_0_0 : DotDims S8x1024x3 S8x4096x3 S8x1024x4096 where
  lhsContracting := [2]
  rhsContracting := [2]
  lhsNonContracting := [1]
  rhsNonContracting := [1]
  lhsBatch := [0]
  rhsBatch := [0]
  wf := dot_S8x1024x3_S8x4096x3_S8x1024x4096_2_2_1_1_0_0_wf
def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.RunResult.lean ====
/-
  The idealized kernel program's run, with its result read.

  The program is five stretches in order: host operations, the first pipelined region, host operations, the second
  region, host operations. Every weakly fair execution ends with each unscoped buffer at the contents the last
  stretch leaves; read at the result buffer this is the result, and read at an argument it is the launch contents.
-/
import proofs.«147973_j85152021610990_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the contents the last
    stretch of host operations leaves there and every argument as launched. -/
theorem run : θ_run defs (onTc (τ := τ) (main (F := F))) ⟨m, fun _ => 0, ρ⟩ (fun r => ∀ c : Dev nD,
      r.2.mem ((c.tc : Thread nD τ).loc main_v22) = W5 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v22 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Result

end
-- ==== Proof.Pieces0.lean ====
/-
  What one grid point of the first region leaves in its two output blocks.

  The body stores each output block whole. The block of row minima is one function of the two input blocks. The
  block of running column minima is the pointwise smaller of what the block held before and this point's column
  minima; at the first point of each half of the grid the body first resets the block to plus infinity, so there
  the value before is plus infinity. So after every point the first block is the row-minimum function of the
  point's input blocks, and the second is the running minimum started afresh at the first point of each half.
-/
import proofs.«147973_j85152021610990_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region0

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a first point the block of row minima is the row-minimum payload of the input blocks. -/
theorem rowBlock_first (c : Dev nD) (i : grid0.Coords) (a2 : Memref sig .tc .vmem S8x128x3 .f32) (h2 : a2.IsWhole)
    (a3 : Memref sig .tc .vmem S8x3x4096 .f32) (h3 : a3.IsWhole) (a4 : Memref sig .tc .vmem S128x8 .f32) (h4 : a4.IsWhole)
    (a5 : Memref sig .tc .vmem S1x8x4096 .f32) (h5 : a5.IsWhole) (hc : cond0_0 i)
    (x0 : Vec F S8x128x3 .f32) (x1 : Vec F S8x3x4096 .f32) :
    out0_A_2 c i a2 h2 a3 h3 a4 h4 a5 h5 hc x0 x1 = k0_pay3 x0 x1 := by
  unfold out0_A_2
  rw [View.read_writes_eq_canon _ _ _ (cover0_A_2 c i a2 h2 a3 h3 a4 h4 a5 h5 hc x0 x1)]
  unfold kernelRun0_A
  dsimp only
  rw [View.canon_unit_zero hz2]
  simp only [View.readAt_eq_ld, h2.read_unread, h3.read_unread, View.ld_unit_zero (S := S8x128x3) hz3,
    View.ld_unit_zero (S := S8x3x4096) hz3]

/-- At a later point likewise. -/
theorem rowBlock_later (c : Dev nD) (i : grid0.Coords) (a2 : Memref sig .tc .vmem S8x128x3 .f32) (h2 : a2.IsWhole)
    (a3 : Memref sig .tc .vmem S8x3x4096 .f32) (h3 : a3.IsWhole) (a4 : Memref sig .tc .vmem S128x8 .f32) (h4 : a4.IsWhole)
    (a5 : Memref sig .tc .vmem S1x8x4096 .f32) (h5 : a5.IsWhole) (hc : ¬cond0_0 i)
    (x0 : Vec F S8x128x3 .f32) (x1 : Vec F S8x3x4096 .f32) (xo : Vec F S1x8x4096 .f32) :
    out0_B_2 c i a2 h2 a3 h3 a4 h4 a5 h5 hc x0 x1 xo = k0_pay3 x0 x1 := by
  unfold out0_B_2
  rw [View.read_writes_eq_canon _ _ _ (cover0_B_2 c i a2 h2 a3 h3 a4 h4 a5 h5 hc x0 x1 xo)]
  unfold kernelRun0_B
  dsimp only
  rw [View.canon_unit_zero hz2]
  simp only [View.readAt_eq_ld, h2.read_unread, h3.read_unread, View.ld_unit_zero (S := S8x128x3) hz3,
    View.ld_unit_zero (S := S8x3x4096) hz3]

/-- At a first point the running block is the accumulation payload over the reset block (plus infinity). -/
theorem colBlock_first (c : Dev nD) (i : grid0.Coords) (a2 : Memref sig .tc .vmem S8x128x3 .f32) (h2 : a2.IsWhole)
    (a3 : Memref sig .tc .vmem S8x3x4096 .f32) (h3 : a3.IsWhole) (a4 : Memref sig .tc .vmem S128x8 .f32) (h4 : a4.IsWhole)
    (a5 : Memref sig .tc .vmem S1x8x4096 .f32) (h5 : a5.IsWhole) (hc : cond0_0 i)
    (x0 : Vec F S8x128x3 .f32) (x1 : Vec F S8x3x4096 .f32) :
    out0_A_3 c i a2 h2 a3 h3 a4 h4 a5 h5 hc x0 x1 = k0_pay4 x0 x1 k0_pay1 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x8x4096) hz3, View.readCov_unit_zero (S := S1x8x4096) _ hz3]
  simp only [View.readAt_eq_ld, h2.read_unread, h3.read_unread, View.ld_unit_zero (S := S8x128x3) hz3,
    View.ld_unit_zero (S := S8x3x4096) hz3]

/-- At a later point it is the accumulation payload over what the block held before. -/
theorem colBlock_later (c : Dev nD) (i : grid0.Coords) (a2 : Memref sig .tc .vmem S8x128x3 .f32) (h2 : a2.IsWhole)
    (a3 : Memref sig .tc .vmem S8x3x4096 .f32) (h3 : a3.IsWhole) (a4 : Memref sig .tc .vmem S128x8 .f32) (h4 : a4.IsWhole)
    (a5 : Memref sig .tc .vmem S1x8x4096 .f32) (h5 : a5.IsWhole) (hc : ¬cond0_0 i)
    (x0 : Vec F S8x128x3 .f32) (x1 : Vec F S8x3x4096 .f32) (xo : Vec F S1x8x4096 .f32) :
    out0_B_3 c i a2 h2 a3 h3 a4 h4 a5 h5 hc x0 x1 xo = k0_pay4 x0 x1 xo := by
  unfold out0_B_3
  rw [View.read_writes_eq_canon _ _ _ (cover0_B_3 c i a2 h2 a3 h3 a4 h4 a5 h5 hc x0 x1 xo)]
  unfold kernelRun0_B
  dsimp only
  rw [View.canon_unit_zero hz3]
  simp only [View.readAt_eq_ld, h2.read_unread, h3.read_unread, h5.read_unread, View.ld_unit_zero (S := S8x128x3) hz3,
    View.ld_unit_zero (S := S8x3x4096) hz3, View.ld_unit_zero (S := S1x8x4096) hz3]

end Cert.KernelIdeal.Region0

end
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.LibMinReads.lean ====
/-
  Minima along one axis, read at coordinates at the exact values.

  A kernel's f32 multi_reduction <minimumf> from the accumulator at plus infinity along the columns of [a, b], and
  the host's reduce with a minimum body along the last axis of [a, b, c], are each the fold of min over that
  axis's coordinates; since the fold starts at plus infinity (the top element), a lower bound of the result is
  exactly a lower bound of every entry. General in the extents.
-/
import proofs.«147973_j85152021610990_2_alg».proof.Proof.LibAxisReads

noncomputable section

namespace Cert.MinReads

open Idealize.ShloMosaic Idealize.ShloMosaic.ValueIdx Cert.AxisReads

/-- The f32 word 0x7F800000 is plus infinity, the top extended real. -/
theorem ofBits_pos_inf : Ideal.ofBits .f32 0x7F800000#32 = (⊤ : EReal) := by
  simp [Ideal.ofBits, Ideal.ieee]

/-- A float multi_reduction <minimumf> over one axis: the fold of min from the accumulator's value over that axis. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A kernel's row minimum of [a, b] at row r, from plus infinity: the fold of min over the entries (r, k). -/
theorem min_cols {a b : ℕ} (src : FVec Ideal ⟨2, ![a, b]⟩ .f32) (h : (⟨2, ![a, b]⟩ : Shape).Reduces [1] ⟨1, ![a]⟩) (r : Fin a) :
    multiReduction .minimumf [1] ⟨1, ![a]⟩ src 0x7F800000#32 h (.inl rfl) rfl (ix1 r)
      = (Finset.univ : Finset (Fin b)).fold min (Ideal.ofBits .f32 0x7F800000#32) (fun k => src (ix2 r k)) :=
  (multiReduction_minimumf_single src 0x7F800000#32 h (.inl rfl) rfl (ix1 r)).trans
    (congrArg ((Finset.univ : Finset (Fin b)).fold min (Ideal.ofBits .f32 0x7F800000#32))
      (funext fun k => congrArg src (lift_cols h r k)))

/-- A lower bound of that row minimum is a lower bound of every entry of the row. -/
theorem le_min_cols_iff {a b : ℕ} (src : FVec Ideal ⟨2, ![a, b]⟩ .f32) (h : (⟨2, ![a, b]⟩ : Shape).Reduces [1] ⟨1, ![a]⟩)
    (r : Fin a) (z : EReal) :
    z ≤ multiReduction .minimumf [1] ⟨1, ![a]⟩ src 0x7F800000#32 h (.inl rfl) rfl (ix1 r) ↔ ∀ k : Fin b, z ≤ src (ix2 r k) := by
  rw [min_cols, Finset.le_fold_min, ofBits_pos_inf]
  exact ⟨fun hh k => hh.2 k (Finset.mem_univ k), fun hh => ⟨le_top, fun k _ => hh k⟩⟩

/-- The host's reduce with a minimum body along the last axis of [a, b, c] at (p, q), from a rank-zero initial value. -/
theorem hostMin_last {a b c : ℕ} (x : FVec Ideal ⟨3, ![a, b, c]⟩ .f32) (init : FVec Ideal ⟨0, ![]⟩ .f32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (q : Fin b) :
    Host.reduce FloatOps.minimumf x init h' hu (ix2 p q)
      = (Finset.univ : Finset (Fin c)).fold min (init ix0) (fun k => x (ix3 p q k)) := by
  rw [Host.reduce_eq_fold_single FloatOps.minimumf x init h' h hu (ix2 p q)]
  have e0 : Shape.Idx.first hu = ix0 := funext fun d => d.elim0
  rw [e0]
  exact congrArg ((Finset.univ : Finset (Fin c)).fold min (init ix0)) (funext fun k => congrArg x (lift_last h p q k))

/-- When the initial value is plus infinity, a lower bound of that minimum is a lower bound of every entry. -/
theorem le_hostMin_last_iff {a b c : ℕ} (x : FVec Ideal ⟨3, ![a, b, c]⟩ .f32) (init : FVec Ideal ⟨0, ![]⟩ .f32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (hinit : init ix0 = (⊤ : EReal)) (p : Fin a) (q : Fin b) (z : EReal) :
    z ≤ Host.reduce FloatOps.minimumf x init h' hu (ix2 p q) ↔ ∀ k : Fin c, z ≤ x (ix3 p q k) := by
  rw [hostMin_last x init h' h hu p q, Finset.le_fold_min, hinit]
  exact ⟨fun hh k => hh.2 k (Finset.mem_univ k), fun hh => ⟨le_top, fun k _ => hh k⟩⟩

end Cert.MinReads

end
-- ==== Proof.LibMinAxes.lean ====
/-
  Minima along each axis of a rank-three array, read at coordinates by their lower bounds.

  A minimum taken from plus infinity (the top element) over one axis of an array is the greatest lower bound of
  the entries along that axis: a number is below it exactly when it is below every entry. This holds for a
  kernel's f32 multi_reduction <minimumf> from the accumulator at plus infinity — along the last axis of
  [a, b, c], read at (p, q), over the entries (p, q, k); along the middle axis, read at (p, q), over (p, k, q) —
  and for the host's reduce with a minimum body from an initial value of plus infinity along the middle axis
  (entries (p, k, q)) and along the leading axis (entries (k, p, q)). Pointwise, a number is below the smaller of
  two numbers exactly when it is below both. General in the extents.
-/
import proofs.«147973_j85152021610990_2_alg».proof.Proof.LibMinReads

noncomputable section

namespace Cert.MinAxes

open Idealize.ShloMosaic Idealize.ShloMosaic.ValueIdx Cert.AxisReads Cert.MinReads

/-! ## The reduced index with the leading coordinate put back -/

theorem lift_lead {a b c : ℕ} (h : (⟨3, ![a, b, c]⟩ : Shape).Reduces [0] ⟨2, ![b, c]⟩) (p : Fin b) (q : Fin c)
    (k : Fin ((⟨3, ![a, b, c]⟩ : Shape).size 0)) : h.lift (ix2 p q) k = ix3 (⟨k.val, k.isLt⟩ : Fin a) p q := by
  funext d; apply Fin.ext
  fin_cases d <;> rfl

/-! ## A kernel's minima from the accumulator at plus infinity -/

/-- Along the last axis of [a, b, c], at (p, q): below the minimum is below every entry (p, q, k). -/
theorem le_min_last_iff {a b c : ℕ} (src : FVec Ideal ⟨3, ![a, b, c]⟩ .f32)
    (h : (⟨3, ![a, b, c]⟩ : Shape).Reduces [2] ⟨2, ![a, b]⟩) (p : Fin a) (q : Fin b) (z : EReal) :
    z ≤ multiReduction .minimumf [2] ⟨2, ![a, b]⟩ src 0x7F800000#32 h (.inl rfl) rfl (ix2 p q)
      ↔ ∀ k : Fin c, z ≤ src (ix3 p q k) := by
  have e : multiReduction .minimumf [2] ⟨2, ![a, b]⟩ src 0x7F800000#32 h (.inl rfl) rfl (ix2 p q)
      = (Finset.univ : Finset (Fin c)).fold min (Ideal.ofBits .f32 0x7F800000#32) (fun k => src (ix3 p q k)) :=
    (multiReduction_minimumf_single src 0x7F800000#32 h (.inl rfl) rfl (ix2 p q)).trans
      (congrArg ((Finset.univ : Finset (Fin c)).fold min (Ideal.ofBits .f32 0x7F800000#32))
        (funext fun k => congrArg src (lift_last h p q k)))
  rw [e, Finset.le_fold_min, ofBits_pos_inf]
  exact ⟨fun hh k => hh.2 k (Finset.mem_univ k), fun hh => ⟨le_top, fun k _ => hh k⟩⟩

/-- Along the middle axis of [a, b, c], at (p, q): below the minimum is below every entry (p, k, q). -/
theorem le_min_mid_iff {a b c : ℕ} (src : FVec Ideal ⟨3, ![a, b, c]⟩ .f32)
    (h : (⟨3, ![a, b, c]⟩ : Shape).Reduces [1] ⟨2, ![a, c]⟩) (p : Fin a) (q : Fin c) (z : EReal) :
    z ≤ multiReduction .minimumf [1] ⟨2, ![a, c]⟩ src 0x7F800000#32 h (.inl rfl) rfl (ix2 p q)
      ↔ ∀ k : Fin b, z ≤ src (ix3 p k q) := by
  have e : multiReduction .minimumf [1] ⟨2, ![a, c]⟩ src 0x7F800000#32 h (.inl rfl) rfl (ix2 p q)
      = (Finset.univ : Finset (Fin b)).fold min (Ideal.ofBits .f32 0x7F800000#32) (fun k => src (ix3 p k q)) :=
    (multiReduction_minimumf_single src 0x7F800000#32 h (.inl rfl) rfl (ix2 p q)).trans
      (congrArg ((Finset.univ : Finset (Fin b)).fold min (Ideal.ofBits .f32 0x7F800000#32))
        (funext fun k => congrArg src (lift_mid h p q k)))
  rw [e, Finset.le_fold_min, ofBits_pos_inf]
  exact ⟨fun hh k => hh.2 k (Finset.mem_univ k), fun hh => ⟨le_top, fun k _ => hh k⟩⟩

/-! ## The host's minima from an initial value of plus infinity -/

/-- Along the middle axis of [a, b, c], at (p, q): below the minimum is below every entry (p, k, q). -/
theorem le_hostMin_mid_iff {a b c : ℕ} (x : FVec Ideal ⟨3, ![a, b, c]⟩ .f32) (init : FVec Ideal ⟨0, ![]⟩ .f32)
    (h' : (⟨3, ![a, b, c]⟩ : Shape).ReducesTo [1] ⟨2, ![a, c]⟩) (h : (⟨3, ![a, b, c]⟩ : Shape).Reduces [1] ⟨2, ![a, c]⟩)
    (hu : 0 < (⟨0, ![]⟩ : Shape).numel) (hinit : init ix0 = (⊤ : EReal)) (p : Fin a) (q : Fin c) (z : EReal) :
    z ≤ Host.reduce FloatOps.minimumf x init h' hu (ix2 p q) ↔ ∀ k : Fin b, z ≤ x (ix3 p k q) := by
  have e0 : Shape.Idx.first hu = ix0 := funext fun d => d.elim0
  have e : Host.reduce FloatOps.minimumf x init h' hu (ix2 p q)
      = (Finset.univ : Finset (Fin b)).fold min (init ix0) (fun k => x (ix3 p k q)) := by
    rw [Host.reduce_eq_fold_single FloatOps.minimumf x init h' h hu (ix2 p q), e0]
    exact congrArg ((Finset.univ : Finset (Fin b)).fold min (init ix0)) (funext fun k => congrArg x (lift_mid h p q k))
  rw [e, Finset.le_fold_min, hinit]
  exact ⟨fun hh k => hh.2 k (Finset.mem_univ k), fun hh => ⟨le_top, fun k _ => hh k⟩⟩

/-- Along the leading axis of [a, b, c], at (p, q): below the minimum is below every entry (k, p, q). -/
theorem le_hostMin_lead_iff {a b c : ℕ} (x : FVec Ideal ⟨3, ![a, b, c]⟩ .f32) (init : FVec Ideal ⟨0, ![]⟩ .f32)
    (h' : (⟨3, ![a, b, c]⟩ : Shape).ReducesTo [0] ⟨2, ![b, c]⟩) (h : (⟨3, ![a, b, c]⟩ : Shape).Reduces [0] ⟨2, ![b, c]⟩)
    (hu : 0 < (⟨0, ![]⟩ : Shape).numel) (hinit : init ix0 = (⊤ : EReal)) (p : Fin b) (q : Fin c) (z : EReal) :
    z ≤ Host.reduce FloatOps.minimumf x init h' hu (ix2 p q) ↔ ∀ k : Fin a, z ≤ x (ix3 k p q) := by
  have e0 : Shape.Idx.first hu = ix0 := funext fun d => d.elim0
  have e : Host.reduce FloatOps.minimumf x init h' hu (ix2 p q)
      = (Finset.univ : Finset (Fin a)).fold min (init ix0) (fun k => x (ix3 k p q)) := by
    rw [Host.reduce_eq_fold_single FloatOps.minimumf x init h' h hu (ix2 p q), e0]
    exact congrArg ((Finset.univ : Finset (Fin a)).fold min (init ix0)) (funext fun k => congrArg x (lift_lead h p q k))
  rw [e, Finset.le_fold_min, hinit]
  exact ⟨fun hh k => hh.2 k (Finset.mem_univ k), fun hh => ⟨le_top, fun k _ => hh k⟩⟩

/-! ## Two numbers agree when they have the same lower bounds -/

/-- The smaller of two extended reals, as the kernel's and the host's pointwise minimum compute it. -/
theorem le_minimumf_iff (x y z : EReal) : z ≤ (FloatOps.minimumf (F := Ideal) (φ := .f32) x y : EReal) ↔ z ≤ x ∧ z ≤ y := by
  rw [Ideal.minimumf_def]; exact le_min_iff

end Cert.MinAxes

end
-- ==== Proof.SquaredDistance.lean ====
/-
  The squared distance between two points of three coordinates, written two ways over the extended reals.

  One way adds the three squared coordinate differences; the other expands the square: the sum of the first
  point's squared coordinates plus the sum of the second's, minus twice the sum of the coordinate products,
  clamped from below at zero. On real coordinates the expansion is the identity (a - b)^2 = a^2 + b^2 - 2ab
  applied three times, and the clamp changes nothing because a sum of squares is not negative. On infinite
  coordinates the two need not agree, so the law is stated for reals.
-/
import Idealize.ShloMosaic.PureOps.Ideal
import Idealize.ShloMosaic.Lib.ValueIdx
import Idealize.ShloMosaic.Lib.ValueLayout

noncomputable section

namespace Cert.Chamfer

/-- The three squared coordinate differences, added first to last. -/
def sqDist (a0 a1 a2 b0 b1 b2 : EReal) : EReal :=
  ((a0 - b0) * (a0 - b0) + (a1 - b1) * (a1 - b1)) + (a2 - b2) * (a2 - b2)

/-- The expanded square, each sum taken from zero, clamped at zero. -/
def sqDistExpanded (a0 a1 a2 b0 b1 b2 : EReal) : EReal :=
  max (((0 + ((a0 * a0 + a1 * a1) + a2 * a2)) + (0 + ((b0 * b0 + b1 * b1) + b2 * b2)))
    - 2 * ((a0 * b0 + a1 * b1) + a2 * b2)) 0

/-- On real coordinates the expanded, clamped form is the sum of the squared differences. -/
theorem sqDistExpanded_eq (a0 a1 a2 b0 b1 b2 : ℝ) :
    sqDistExpanded a0 a1 a2 b0 b1 b2 = sqDist a0 a1 a2 b0 b1 b2 := by
  have h : ((a0 * a0 + a1 * a1) + a2 * a2) + ((b0 * b0 + b1 * b1) + b2 * b2) - 2 * ((a0 * b0 + a1 * b1) + a2 * b2)
      = ((a0 - b0) * (a0 - b0) + (a1 - b1) * (a1 - b1)) + (a2 - b2) * (a2 - b2) := by ring
  have hnn : 0 ≤ ((a0 - b0) * (a0 - b0) + (a1 - b1) * (a1 - b1)) + (a2 - b2) * (a2 - b2) :=
    add_nonneg (add_nonneg (mul_self_nonneg _) (mul_self_nonneg _)) (mul_self_nonneg _)
  have e2 : (2 : EReal) = ((2 : ℝ) : EReal) := by norm_cast
  have hl : ((0 + (((a0 : EReal) * a0 + a1 * a1) + a2 * a2)) + (0 + (((b0 : EReal) * b0 + b1 * b1) + b2 * b2)))
      - 2 * (((a0 : EReal) * b0 + a1 * b1) + a2 * b2)
      = ((((a0 - b0) * (a0 - b0) + (a1 - b1) * (a1 - b1)) + (a2 - b2) * (a2 - b2) : ℝ) : EReal) := by
    rw [← h, e2, zero_add, zero_add]
    push_cast
    rfl
  have hr : sqDist a0 a1 a2 b0 b1 b2
      = ((((a0 - b0) * (a0 - b0) + (a1 - b1) * (a1 - b1)) + (a2 - b2) * (a2 - b2) : ℝ) : EReal) := by
    unfold sqDist
    push_cast
    rfl
  unfold sqDistExpanded
  rw [hl, hr]
  exact max_eq_left (by exact_mod_cast hnn)

open Idealize.ShloMosaic Idealize.ShloMosaic.ValueIdx in
/-- The squared distance from point n of batch b of an array of points [8, N, 3] to point m of batch b of an
    array of points stored coordinate-major, [8, 3, M]. -/
def distAt {N M : ℕ} (P : (⟨3, ![8, N, 3]⟩ : Shape).Idx → EReal) (Q : (⟨3, ![8, 3, M]⟩ : Shape).Idx → EReal)
    (b : Fin 8) (n : Fin N) (m : Fin M) : EReal :=
  sqDist (P (ix3 b n (0 : Fin 3))) (P (ix3 b n (1 : Fin 3))) (P (ix3 b n (2 : Fin 3)))
    (Q (ix3 b (0 : Fin 3) m)) (Q (ix3 b (1 : Fin 3) m)) (Q (ix3 b (2 : Fin 3) m))

open Idealize.ShloMosaic Idealize.ShloMosaic.ValueIdx

/-- Between a cloud stored coordinate-major [8, 3, N] and re-laid point-major, and targets stored point-major
    [8, M, 3] and re-laid coordinate-major, the squared distance reads the stored coordinates directly. -/
theorem distAt_relaid {N M : ℕ} (x : (⟨3, ![8, 3, N]⟩ : Shape).Idx → EReal) (y : (⟨3, ![8, M, 3]⟩ : Shape).Idx → EReal)
    (hx : (⟨3, ![8, 3, N]⟩ : Shape).Transposes [0, 2, 1] ⟨3, ![8, N, 3]⟩)
    (hy : (⟨3, ![8, M, 3]⟩ : Shape).Transposes [0, 2, 1] ⟨3, ![8, 3, M]⟩) (b : Fin 8) (n : Fin N) (m : Fin M) :
    distAt (transpose ⟨3, ![8, N, 3]⟩ [0, 2, 1] x hx) (transpose ⟨3, ![8, 3, M]⟩ [0, 2, 1] y hy) b n m
      = sqDist (x (ix3 b (0 : Fin 3) n)) (x (ix3 b (1 : Fin 3) n)) (x (ix3 b (2 : Fin 3) n))
          (y (ix3 b m (0 : Fin 3))) (y (ix3 b m (1 : Fin 3))) (y (ix3 b m (2 : Fin 3))) := by
  unfold distAt
  rw [transpose_ix3_021_apply x hx b n 0, transpose_ix3_021_apply x hx b n 1, transpose_ix3_021_apply x hx b n 2,
    transpose_ix3_021_apply y hy b 0 m, transpose_ix3_021_apply y hy b 1 m, transpose_ix3_021_apply y hy b 2 m]

/-! ## Least squared distances, by their lower bounds -/

section Minima
variable {N M : ℕ} (P : (⟨3, ![8, N, 3]⟩ : Shape).Idx → EReal) (Q : (⟨3, ![8, 3, M]⟩ : Shape).Idx → EReal)

/-- The least squared distance from point n to the targets of its batch. -/
def rowMinAt (b : Fin 8) (n : Fin N) : EReal := ⨅ m : Fin M, distAt P Q b n m

theorem le_rowMinAt_iff (b : Fin 8) (n : Fin N) (z : EReal) : z ≤ rowMinAt P Q b n ↔ ∀ m : Fin M, z ≤ distAt P Q b n m :=
  le_iInf_iff

/-- The least squared distance to target m from the points in rows lo … lo + len - 1 of its batch. -/
def colMinOn (lo len : ℕ) (b : Fin 8) (m : Fin M) : EReal :=
  ⨅ n : Fin N, ⨅ (_ : lo ≤ n.val ∧ n.val < lo + len), distAt P Q b n m

theorem le_colMinOn_iff (lo len : ℕ) (b : Fin 8) (m : Fin M) (z : EReal) :
    z ≤ colMinOn P Q lo len b m ↔ ∀ n : Fin N, lo ≤ n.val → n.val < lo + len → z ≤ distAt P Q b n m := by
  unfold colMinOn
  simp only [le_iInf_iff]
  exact ⟨fun h n h1 h2 => h n ⟨h1, h2⟩, fun h n hh => h n hh.1 hh.2⟩

/-- The least squared distance to target m from all the points of its batch. -/
def colMinAt (b : Fin 8) (m : Fin M) : EReal := ⨅ n : Fin N, distAt P Q b n m

theorem le_colMinAt_iff (b : Fin 8) (m : Fin M) (z : EReal) : z ≤ colMinAt P Q b m ↔ ∀ n : Fin N, z ≤ distAt P Q b n m :=
  le_iInf_iff

/-- The row minima as the kernel lays them out: entry (n, b). -/
def rowMins : (⟨2, ![N, 8]⟩ : Shape).Idx → EReal :=
  fun j => rowMinAt P Q ⟨(j 1).val, (j 1).isLt⟩ ⟨(j 0).val, (j 0).isLt⟩

/-- The column minima over each half of the points (H rows each), as the kernel lays them out: entry (h, b, m). -/
def halfColMins (H : ℕ) : (⟨3, ![2, 8, M]⟩ : Shape).Idx → EReal :=
  fun j => colMinOn P Q ((j 0).val * H) H ⟨(j 1).val, (j 1).isLt⟩ ⟨(j 2).val, (j 2).isLt⟩

/-- The column minima over all the points: entry (b, m). -/
def colMins : (⟨2, ![8, M]⟩ : Shape).Idx → EReal :=
  fun j => colMinAt P Q ⟨(j 0).val, (j 0).isLt⟩ ⟨(j 1).val, (j 1).isLt⟩

end Minima

end Cert.Chamfer

end
-- ==== Proof.BlockValues.lean ====
/-
  One grid point's arithmetic, read entry by entry over the extended reals.

  From a block of 128 points per batch, [8, 128, 3], and all 4096 target points per batch stored
  coordinate-major, [8, 3, 4096], the body forms the table of squared distances [8, 128, 4096]: entry (b, r, m)
  is the squared distance from point r to target point m of batch b. The block of row minima, stored
  transposed [128, 8], has at (r, b) the least entry over m; the column minima of the block have at (b, m)
  the least entry over r, and the running block keeps the smaller of its previous entry and that. Minima are
  stated by their lower bounds. Both regions run the same arithmetic.
-/
import proofs.«147973_j85152021610990_2_alg».proof.Proof.Gen.KernelIdeal.Skeleton
import proofs.«147973_j85152021610990_2_alg».proof.Proof.LibMinAxes
import proofs.«147973_j85152021610990_2_alg».proof.Proof.SquaredDistance
import Idealize.ShloMosaic.Lib.ValueLayout

noncomputable section

namespace Cert.KernelIdeal.Block

open Cert.KernelIdeal Cert.KernelIdeal.Gen Idealize.ShloMosaic Idealize.ShloMosaic.ValueIdx
open Cert.AxisReads Cert.MinReads Cert.MinAxes Cert.Chamfer

/-- Coordinate k of the block's points, repeated along the target axis: entry (b, r, m) is coordinate k of point r. -/
theorem pointCoord_read (x : FVec Ideal S8x128x3 .f32) (off : Fin 3 → ℕ) (k : Fin 3) (h0 : off 0 = 0) (h1 : off 1 = 0)
    (h2 : off 2 = k.val) (hs : S8x128x3.Slices off S8x128x1) (hb : S8x128x1.Broadcasts S8x128x4096)
    (b : Fin 8) (r : Fin 128) (m : Fin 4096) :
    broadcastTo S8x128x4096 (extractStridedSlice S8x128x1 off x hs) hb (ix3 b r m) = x (ix3 b r k) := by
  refine (broadcastTo_ab1_abc_apply (a := 8) (b := 128) (c := 4096) _ hb b r m).trans ?_
  refine extractStridedSlice_apply off x hs _ _ fun a => ?_
  match a with
  | ⟨0, _⟩ => show b.val = off 0 + b.val; omega
  | ⟨1, _⟩ => show r.val = off 1 + r.val; omega
  | ⟨2, _⟩ => show k.val = off 2 + 0; omega

/-- Coordinate k of the target points, repeated along the block's point axis: entry (b, r, m) is coordinate k of target m. -/
theorem targetCoord_read (x : FVec Ideal S8x3x4096 .f32) (off : Fin 3 → ℕ) (k : Fin 3) (h0 : off 0 = 0) (h1 : off 1 = k.val)
    (h2 : off 2 = 0) (hs : S8x3x4096.Slices off S8x1x4096) (hb : S8x1x4096.Broadcasts S8x128x4096)
    (b : Fin 8) (r : Fin 128) (m : Fin 4096) :
    broadcastTo S8x128x4096 (extractStridedSlice S8x1x4096 off x hs) hb (ix3 b r m) = x (ix3 b k m) := by
  refine (broadcastTo_a1c_abc_apply (a := 8) (b := 128) (c := 4096) _ hb b r m).trans ?_
  refine extractStridedSlice_apply off x hs _ _ fun a => ?_
  match a with
  | ⟨0, _⟩ => show b.val = off 0 + b.val; omega
  | ⟨1, _⟩ => show k.val = off 1 + 0; omega
  | ⟨2, _⟩ => show m.val = off 2 + m.val; omega

/-- The table of squared distances, entry by entry. -/
theorem table_read (x0 : FVec Ideal S8x128x3 .f32) (x1 : FVec Ideal S8x3x4096 .f32) (b : Fin 8) (r : Fin 128) (m : Fin 4096) :
    k0_pay2 (F := Ideal) x0 x1 (ix3 b r m) = distAt x0 x1 b r m := by
  unfold k0_pay2 distAt sqDist
  simp only [shapeCast_self]
  simp only [addf_apply, mulf_apply, subf_apply]
  rw [pointCoord_read x0 ![0, 0, 0] 0 rfl rfl rfl, pointCoord_read x0 ![0, 0, 1] 1 rfl rfl rfl,
    pointCoord_read x0 ![0, 0, 2] 2 rfl rfl rfl, targetCoord_read x1 ![0, 0, 0] 0 rfl rfl rfl,
    targetCoord_read x1 ![0, 1, 0] 1 rfl rfl rfl, targetCoord_read x1 ![0, 2, 0] 2 rfl rfl rfl]

/-- Below the block's row minimum at (r, b) is below the squared distance from point r to every target. -/
theorem le_rowBlock_iff (x0 : FVec Ideal S8x128x3 .f32) (x1 : FVec Ideal S8x3x4096 .f32) (r : Fin 128) (b : Fin 8) (z : EReal) :
    z ≤ k0_pay3 (F := Ideal) x0 x1 (ix2 r b) ↔ ∀ m : Fin 4096, z ≤ distAt x0 x1 b r m := by
  unfold k0_pay3
  rw [transpose_ix2_apply (a := 8) (b := 128) _ _ r b, le_min_last_iff]
  exact forall_congr' fun m => by rw [table_read]

/-- The reset block is plus infinity everywhere. -/
theorem reset_read (j : S1x8x4096.Idx) : k0_pay1 (F := Ideal) j = (⊤ : EReal) := by
  unfold k0_pay1
  obtain ⟨u, b, m, rfl⟩ : ∃ (u : Fin 1) (b : Fin 8) (m : Fin 4096), j = ix3 u b m := ⟨j 0, j 1, j 2, eq_ix3 j⟩
  rw [shapeCast_ab_1ab_apply (a := 8) (b := 4096) _ _ u b m]
  exact ofBits_pos_inf

/-- Below the running block's new entry (0, b, m) is below its previous entry and below the squared distance from
    every point of the block to target m. -/
theorem le_colBlock_iff (x0 : FVec Ideal S8x128x3 .f32) (x1 : FVec Ideal S8x3x4096 .f32) (prev : FVec Ideal S1x8x4096 .f32)
    (u : Fin 1) (b : Fin 8) (m : Fin 4096) (z : EReal) :
    z ≤ k0_pay4 (F := Ideal) x0 x1 prev (ix3 u b m)
      ↔ z ≤ prev (ix3 (0 : Fin 1) b m) ∧ ∀ r : Fin 128, z ≤ distAt x0 x1 b r m := by
  unfold k0_pay4
  rw [shapeCast_ab_1ab_apply (a := 8) (b := 4096) _ _ u b m, minimumf_apply, le_min_iff,
    shapeCast_1ab_ab_apply (a := 8) (b := 4096) _ _ b m, le_min_mid_iff]
  exact and_congr Iff.rfl (forall_congr' fun r => by rw [table_read])

/-! The second region's body is the same arithmetic. -/

theorem le_rowBlock1_iff (x0 : FVec Ideal S8x128x3 .f32) (x1 : FVec Ideal S8x3x4096 .f32) (r : Fin 128) (b : Fin 8) (z : EReal) :
    z ≤ k1_pay3 (F := Ideal) x0 x1 (ix2 r b) ↔ ∀ m : Fin 4096, z ≤ distAt x0 x1 b r m :=
  le_rowBlock_iff x0 x1 r b z

theorem reset1_read (j : S1x8x4096.Idx) : k1_pay1 (F := Ideal) j = (⊤ : EReal) := reset_read j

theorem le_colBlock1_iff (x0 : FVec Ideal S8x128x3 .f32) (x1 : FVec Ideal S8x3x4096 .f32) (prev : FVec Ideal S1x8x4096 .f32)
    (u : Fin 1) (b : Fin 8) (m : Fin 4096) (z : EReal) :
    z ≤ k1_pay4 (F := Ideal) x0 x1 prev (ix3 u b m)
      ↔ z ≤ prev (ix3 (0 : Fin 1) b m) ∧ ∀ r : Fin 128, z ≤ distAt x0 x1 b r m :=
  le_colBlock_iff x0 x1 prev u b m z

end Cert.KernelIdeal.Block

end
-- ==== Proof.RowRanges.lean ====
/-
  Runs of consecutive rows.

  A property of rows holds on the 128 rows that start at row lo exactly when it holds at lo + r for every
  r below 128; and it holds on a range of rows extended by such a run exactly when it holds on the range and
  on the run. This is how a minimum accumulated tile by tile is a minimum over the rows seen so far.
-/
import Mathlib.Data.Fin.Basic
import Mathlib.Tactic

namespace Cert.Chamfer

/-- On the run of 128 rows from lo. -/
theorem forall_run_iff {N : ℕ} (φ : Fin N → Prop) (lo : ℕ) (hlo : lo + 128 ≤ N) :
    (∀ r : Fin 128, φ ⟨lo + r.val, by have := r.isLt; omega⟩) ↔ ∀ n : Fin N, lo ≤ n.val → n.val < lo + 128 → φ n := by
  constructor
  · intro h n h1 h2
    have e : (⟨lo + (⟨n.val - lo, by omega⟩ : Fin 128).val, by have := n.isLt; dsimp only; omega⟩ : Fin N) = n :=
      Fin.ext (by dsimp only; omega)
    exact e ▸ h ⟨n.val - lo, by omega⟩
  · intro h r
    exact h _ (by dsimp only; omega) (by have := r.isLt; dsimp only; omega)

/-- A range of rows from start up to lo, then the run of 128 rows from lo. -/
theorem forall_range_run_iff {N : ℕ} (φ : Fin N → Prop) (start lo : ℕ) (hs : start ≤ lo) (hlo : lo + 128 ≤ N) :
    ((∀ n : Fin N, start ≤ n.val → n.val < lo → φ n) ∧ ∀ r : Fin 128, φ ⟨lo + r.val, by have := r.isLt; omega⟩)
      ↔ ∀ n : Fin N, start ≤ n.val → n.val < lo + 128 → φ n := by
  rw [forall_run_iff φ lo hlo]
  constructor
  · rintro ⟨h1, h2⟩ n ha hb
    by_cases hn : n.val < lo
    · exact h1 n ha hn
    · exact h2 n (by omega) hb
  · intro h
    exact ⟨fun n ha hb => h n ha (by omega), fun n ha hb => h n (by omega) hb⟩

end Cert.Chamfer
-- ==== Proof.Region0.lean ====
/-
  What the first region leaves in its two output arrays, as whole-array functions.

  The grid runs over 8 tiles of 128 points, 4 tiles per half. Tile t reads points 128 t … 128 t + 127 of every
  batch and all the targets. Its block of row minima is rows 128 t … 128 t + 127 of the array of row minima, so
  that array ends holding, at (n, b), the least squared distance from point n to the targets. The block of
  running column minima belongs to the tile's half: it is reset at the half's first tile and written back after
  its last, when it holds, at (b, m), the least squared distance to target m from the 512 points of the half.
  The arrays are read as the region finds them, whatever wrote them before.
-/
import proofs.«147973_j85152021610990_2_alg».proof.Proof.Pieces0
import proofs.«147973_j85152021610990_2_alg».proof.Proof.BlockValues
import proofs.«147973_j85152021610990_2_alg».proof.Proof.RowRanges

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Chamfer Cert.KernelIdeal.Block

variable (V : (c : Dev nD) → (b : Ref sig .tc) → Buf (Elt Ideal) ((c : Thread nD τ).loc b))

/-- The region's points, [8, 1024, 3], and targets, [8, 3, 4096], as it finds them. -/
abbrev pts (c : Dev nD) : FVec Ideal S8x1024x3 .f32 := V c main_v4
abbrev tgt (c : Dev nD) : FVec Ideal S8x3x4096 .f32 := V c main_v6

/-- Where each window's block sits at tile t: the points' and the row minima's blocks at block row t, the
    targets whole, the running block at the tile's half. -/
theorem block_places : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val / 4 ∧ win0_3.index t (1 : Fin 3) = 0 ∧ win0_3.index t (2 : Fin 3) = 0 :=
  (by decide +kernel : ∀ t : Fin grid0.N, _)

/-- Tile t's block of points is points 128 t … 128 t + 127. -/
theorem pts_block (c : Dev nD) (t : Fin cfg0.N) (b : Fin 8) (r : Fin 128) (k : Fin 3) :
    (iblk0 V c 0 t : FVec Ideal S8x128x3 .f32) (ix3 b r k)
      = pts V c (ix3 b (⟨128 * t.val + r.val, by have := t.isLt; have hN : cfg0.N = 8 := N_0; have := r.isLt; omega⟩ : Fin 1024) k) := by
  obtain ⟨e0, e1, e2, -⟩ := block_places t
  unfold iblk0
  rw [View.read_apply]
  show V c main_v4 (((cfg0.win 0).blk t).view.emb (ix3 b r k)) = V c main_v4 _
  refine congrArg (V c main_v4) (funext fun a => Fin.ext ?_)
  match a with
  | ⟨0, _⟩ => show win0_0.index t (0 : Fin 3) * 8 + 1 * b.val = b.val; omega
  | ⟨1, _⟩ => show win0_0.index t (1 : Fin 3) * 128 + 1 * r.val = 128 * t.val + r.val; omega
  | ⟨2, _⟩ => show win0_0.index t (2 : Fin 3) * 3 + 1 * k.val = k.val; omega

/-- Every tile's block of targets is all the targets. -/
theorem tgt_block (c : Dev nD) (t : Fin cfg0.N) : (iblk0 V c 1 t : FVec Ideal S8x3x4096 .f32) = tgt V c := by
  obtain ⟨-, -, -, e3, e4, e5, -⟩ := block_places t
  funext j
  unfold iblk0
  rw [View.read_apply]
  show V c main_v6 (((cfg0.win 1).blk t).view.emb j) = V c main_v6 j
  refine congrArg (V c main_v6) (funext fun a => Fin.ext ?_)
  match a with
  | ⟨0, _⟩ => show win0_1.index t (0 : Fin 3) * 8 + 1 * (j 0).val = (j 0).val; omega
  | ⟨1, _⟩ => show win0_1.index t (1 : Fin 3) * 3 + 1 * (j 1).val = (j 1).val; omega
  | ⟨2, _⟩ => show win0_1.index t (2 : Fin 3) * 4096 + 1 * (j 2).val = (j 2).val; omega

/-- So a squared distance within tile t's blocks is the squared distance from point 128 t + r. -/
theorem dist_block (c : Dev nD) (t : Fin cfg0.N) (b : Fin 8) (r : Fin 128) (m : Fin 4096) :
    distAt (iblk0 V c 0 t : FVec Ideal S8x128x3 .f32) (iblk0 V c 1 t : FVec Ideal S8x3x4096 .f32) b r m
      = distAt (pts V c) (tgt V c) b (⟨128 * t.val + r.val, by have := t.isLt; have hN : cfg0.N = 8 := N_0; have := r.isLt; omega⟩ : Fin 1024) m := by
  unfold distAt
  rw [pts_block V c t b r 0, pts_block V c t b r 1, pts_block V c t b r 2, tgt_block V c t]

/-! ## The blocks after each tile -/

/-- After any tile the block of row minima is the row-minimum payload of the tile's blocks. -/
theorem rows_after (c : Dev nD) (t : Fin cfg0.N) :
    (outsAt0 V c t.val t.isLt).1 = k0_pay3 (iblk0 V c 0 t) (iblk0 V c 1 t) := by
  by_cases h0 : t.val % 4 = 0
  · exact (congrArg Prod.fst (outsAt0_A V c t h0)).trans
      (rowBlock_first c (grid0.coords t) (ms0_0 t) (hs0_0 t) (ms0_1 t) (hs0_1 t) (ms0_2 t) (hs0_2 t) (ms0_3 t) (hs0_3 t)
        ((hcond0_0 t).mpr h0) (iblk0 V c 0 t) (iblk0 V c 1 t))
  · exact (congrArg Prod.fst (outsAt0_B V c t h0)).trans
      (rowBlock_later c (grid0.coords t) (ms0_0 t) (hs0_0 t) (ms0_1 t) (hs0_1 t) (ms0_2 t) (hs0_2 t) (ms0_3 t) (hs0_3 t)
        (fun h => h0 ((hcond0_0 t).mp h)) (iblk0 V c 0 t) (iblk0 V c 1 t)
        (outsAt0 V c (t.val - 1) (Nat.lt_of_le_of_lt (Nat.sub_le _ _) t.isLt)).2)

/-- After the first tile of a half the running block is what the first case of the body leaves. -/
theorem cols_first_found (c : Dev nD) (t : Fin cfg0.N) (h0 : t.val % 4 = 0) :
    (outsAt0 V c t.val t.isLt).2
      = out0_A_3 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t) := by
  rw [outsAt0_A V c t h0]

/-- That is the accumulation payload over the reset block. -/
theorem cols_first (c : Dev nD) (t : Fin cfg0.N) (h0 : t.val % 4 = 0) :
    (outsAt0 V c t.val t.isLt).2 = k0_pay4 (F := Ideal) (iblk0 V c 0 t) (iblk0 V c 1 t) (k0_pay1 (F := Ideal)) :=
  (cols_first_found V c t h0).trans
    (colBlock_first (F := Ideal) c (grid0.coords t) (ms0_0 t) (hs0_0 t) (ms0_1 t) (hs0_1 t) (ms0_2 t) (hs0_2 t) (ms0_3 t) (hs0_3 t) ((hcond0_0 t).mpr h0) (iblk0 V c 0 t) (iblk0 V c 1 t))

/-- After a later tile it is what the other case of the body leaves, over what the tile before left. -/
theorem cols_later_found (c : Dev nD) (t : Fin cfg0.N) (h0 : ¬t.val % 4 = 0) :
    (outsAt0 V c t.val t.isLt).2
      = out0_B_3 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t)
          (outsAt0 V c (t.val - 1) (Nat.lt_of_le_of_lt (Nat.sub_le _ _) t.isLt)).2 := by
  rw [outsAt0_B V c t h0]

/-- That is the accumulation payload over the previous block. -/
theorem cols_later (c : Dev nD) (t : Fin cfg0.N) (h0 : ¬t.val % 4 = 0) :
    (outsAt0 V c t.val t.isLt).2 = k0_pay4 (F := Ideal) (iblk0 V c 0 t) (iblk0 V c 1 t)
      (outsAt0 V c (t.val - 1) (Nat.lt_of_le_of_lt (Nat.sub_le _ _) t.isLt)).2 :=
  (cols_later_found V c t h0).trans
    (colBlock_later (F := Ideal) c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t)
      (outsAt0 V c (t.val - 1) (Nat.lt_of_le_of_lt (Nat.sub_le _ _) t.isLt)).2)

/-- A block [1, 8, 4096] holds, at (b, m), the least squared distance to target m from points lo … hi - 1. -/
def RunningMin (c : Dev nD) (A : FVec Ideal S1x8x4096 .f32) (lo hi : ℕ) : Prop :=
  ∀ (b : Fin 8) (m : Fin 4096) (z : EReal),
    z ≤ A (ix3 (0 : Fin 1) b m) ↔ ∀ n : Fin 1024, lo ≤ n.val → n.val < hi → z ≤ distAt (pts V c) (tgt V c) b n m

/-- At the first tile of a half the running block is the tile's own column minima. -/
theorem running_first (c : Dev nD) (t : Fin cfg0.N) (h0 : t.val % 4 = 0) :
    RunningMin V c (outsAt0 V c t.val t.isLt).2 (t.val / 4 * 512) (t.val * 128 + 128) := by
  have hN : cfg0.N = 8 := N_0
  have ht := t.isLt
  intro b m z
  rw [cols_first V c t h0]
  refine (le_colBlock_iff (iblk0 V c 0 t) (iblk0 V c 1 t) (k0_pay1 (F := Ideal)) 0 b m z).trans ?_
  constructor
  · rintro ⟨-, hr⟩ n h1 h2
    exact (forall_run_iff (fun n => z ≤ distAt (pts V c) (tgt V c) b n m) (128 * t.val) (by omega)).mp
      (fun r => le_of_le_of_eq (hr r) (dist_block V c t b r m)) n (by omega) (by omega)
  · intro hall
    refine ⟨?_, fun r => ?_⟩
    · rw [reset_read]; exact le_top
    · exact le_of_le_of_eq (hall _ (by dsimp only; omega) (by have := r.isLt; dsimp only; omega)) (dist_block V c t b r m).symm

/-- At a later tile of a half it is the smaller of what it held and the tile's column minima. -/
theorem running_later (c : Dev nD) (t : Fin cfg0.N) (h0 : ¬t.val % 4 = 0)
    (ih : RunningMin V c (outsAt0 V c (t.val - 1) (Nat.lt_of_le_of_lt (Nat.sub_le _ _) t.isLt)).2
      ((t.val - 1) / 4 * 512) ((t.val - 1) * 128 + 128)) :
    RunningMin V c (outsAt0 V c t.val t.isLt).2 (t.val / 4 * 512) (t.val * 128 + 128) := by
  have hN : cfg0.N = 8 := N_0
  have ht := t.isLt
  intro b m z
  rw [cols_later V c t h0]
  refine (le_colBlock_iff (iblk0 V c 0 t) (iblk0 V c 1 t)
    (outsAt0 V c (t.val - 1) (Nat.lt_of_le_of_lt (Nat.sub_le _ _) t.isLt)).2 0 b m z).trans ?_
  rw [ih b m z]
  constructor
  · rintro ⟨h1, h2⟩ n ha hb
    by_cases hn : n.val < 128 * t.val
    · exact h1 n (by omega) (by omega)
    · exact (forall_run_iff (fun n => z ≤ distAt (pts V c) (tgt V c) b n m) (128 * t.val) (by omega)).mp
        (fun r => le_of_le_of_eq (h2 r) (dist_block V c t b r m)) n (by omega) (by omega)
  · intro hall
    refine ⟨fun n ha hb => hall n (by omega) (by omega), fun r => ?_⟩
    exact le_of_le_of_eq (hall _ (by dsimp only; omega) (by have := r.isLt; dsimp only; omega)) (dist_block V c t b r m).symm

/-- After tile n the running block covers the rows from the start of the tile's half through the tile. -/
theorem running (c : Dev nD) : ∀ (n : ℕ) (h : n < cfg0.N),
    RunningMin V c (outsAt0 V c n h).2 (n / 4 * 512) (n * 128 + 128) := by
  intro n
  induction n with
  | zero => intro h; exact running_first V c ⟨0, h⟩ rfl
  | succ n ih =>
    intro h
    by_cases h0 : (n + 1) % 4 = 0
    · exact running_first V c ⟨n + 1, h⟩ h0
    · exact running_later V c ⟨n + 1, h⟩ h0 (ih (Nat.lt_of_succ_lt h))

/-! ## The array of row minima -/

/-- What tile t writes back is rows 128 t … 128 t + 127 of the row minima. -/
theorem rows_flushed (c : Dev nD) (t : Fin cfg0.N) :
    (dat0 V c).flushed 2 t = ((cfg0.win 2).blk t).view.read (Elt Ideal) (rowMins (pts V c) (tgt V c)) := by
  obtain ⟨-, -, -, -, -, -, e6, e7, -⟩ := block_places t
  have hN : cfg0.N = 8 := N_0
  have ht := t.isLt
  show (cfg0.win 2).cut (grid0.coords t) ((dat0 V c).after 2 t) = _
  rw [after0_2, rows_after]
  funext j
  obtain ⟨r, b, rfl⟩ : ∃ (r : Fin 128) (b : Fin 8), j = ix2 r b := ⟨j 0, j 1, eq_ix2 j⟩
  have hr := r.isLt
  have hemb : ((cfg0.win 2).blk t).view.emb (ix2 r b) = ix2 (⟨128 * t.val + r.val, by omega⟩ : Fin 1024) b := by
    funext a; apply Fin.ext
    match a with
    | ⟨0, _⟩ => show win0_2.index t (0 : Fin 2) * 128 + 1 * r.val = 128 * t.val + r.val; omega
    | ⟨1, _⟩ => show win0_2.index t (1 : Fin 2) * 8 + 1 * b.val = b.val; omega
  show k0_pay3 (iblk0 V c 0 t) (iblk0 V c 1 t) (ix2 r b) = rowMins (pts V c) (tgt V c) (((cfg0.win 2).blk t).view.emb (ix2 r b))
  rw [hemb]
  show _ = rowMinAt (pts V c) (tgt V c) b (⟨128 * t.val + r.val, by omega⟩ : Fin 1024)
  refine eq_of_forall_le_iff fun z => ?_
  refine (le_rowBlock_iff (iblk0 V c 0 t) (iblk0 V c 1 t) r b z).trans ?_
  rw [le_rowMinAt_iff]
  exact forall_congr' fun m => by rw [dist_block V c t b r m]

/-- An index of the array is in tile t's block when each coordinate is in the block's range. -/
theorem mem_rows_block (t : Fin cfg0.N) (i : S1024x8.Idx) :
    i ∈ ((cfg0.win 2).blk t).view.set
      ↔ ∀ a : Fin 2, win0_2.index t a * S128x8.size a ≤ (i a).val ∧ (i a).val < win0_2.index t a * S128x8.size a + S128x8.size a := by
  show i ∈ ((View.whole main_v7_0).slice (win0_2.rect t)).set ↔ _
  rw [View.set_slice_whole, Rect.mem_set_unit]
  exact Iff.rfl

/-- The array of row minima after the region. -/
theorem rows_final (c : Dev nD) : (dat0 V c).arrAt 2 cfg0.N = rowMins (pts V c) (tgt V c) :=
  (dat0 V c).arrAt_eq_of_cover 2 (rowMins (pts V c) (tgt V c)) (fun t _ => rows_flushed V c t) fun i => by
    have hN : cfg0.N = 8 := N_0
    have hi0 : (i 0).val < 1024 := (i 0).isLt
    have hi1 : (i 1).val < 8 := (i 1).isLt
    obtain ⟨-, -, -, -, -, -, e6, e7, -⟩ := block_places (⟨(i 0).val / 128, by omega⟩ : Fin cfg0.N)
    refine ⟨⟨(i 0).val / 128, by omega⟩, flush0_2 _, ?_⟩
    rw [mem_rows_block]
    intro a
    match a with
    | ⟨0, _⟩ =>
      show win0_2.index ⟨(i 0).val / 128, _⟩ (0 : Fin 2) * 128 ≤ (i 0).val ∧ (i 0).val < win0_2.index ⟨(i 0).val / 128, _⟩ (0 : Fin 2) * 128 + 128
      rw [e6]; dsimp only; omega
    | ⟨1, _⟩ =>
      show win0_2.index ⟨(i 0).val / 128, _⟩ (1 : Fin 2) * 8 ≤ (i 1).val ∧ (i 1).val < win0_2.index ⟨(i 0).val / 128, _⟩ (1 : Fin 2) * 8 + 8
      rw [e7]; omega

/-! ## The array of column minima over each half -/

/-- What the last tile of a half writes back is that half's block of the column minima. -/
theorem cols_flushed (c : Dev nD) (t : Fin cfg0.N) (hf : (cfg0.win 3).flush t = true) :
    (dat0 V c).flushed 3 t = ((cfg0.win 3).blk t).view.read (Elt Ideal) (halfColMins (pts V c) (tgt V c) 512) := by
  obtain ⟨-, -, -, -, -, -, -, -, e8, e9, e10⟩ := block_places t
  have hN : cfg0.N = 8 := N_0
  have ht := t.isLt
  have h3 : t.val % 4 = 3 := (flush0_3 t).mp hf
  show (cfg0.win 3).cut (grid0.coords t) ((dat0 V c).after 3 t) = _
  rw [after0_3]
  funext j
  obtain ⟨u, b, m, rfl⟩ : ∃ (u : Fin 1) (b : Fin 8) (m : Fin 4096), j = ix3 u b m := ⟨j 0, j 1, j 2, eq_ix3 j⟩
  obtain rfl : u = 0 := Fin.ext (by omega)
  have hemb : ((cfg0.win 3).blk t).view.emb (ix3 (0 : Fin 1) b m) = ix3 (⟨t.val / 4, by omega⟩ : Fin 2) b m := by
    funext a; apply Fin.ext
    match a with
    | ⟨0, _⟩ => show win0_3.index t (0 : Fin 3) * 1 + 1 * 0 = t.val / 4; omega
    | ⟨1, _⟩ => show win0_3.index t (1 : Fin 3) * 8 + 1 * b.val = b.val; omega
    | ⟨2, _⟩ => show win0_3.index t (2 : Fin 3) * 4096 + 1 * m.val = m.val; omega
  show (outsAt0 V c t.val t.isLt).2 (ix3 (0 : Fin 1) b m)
    = halfColMins (pts V c) (tgt V c) 512 (((cfg0.win 3).blk t).view.emb (ix3 (0 : Fin 1) b m))
  rw [hemb]
  show _ = colMinOn (pts V c) (tgt V c) (t.val / 4 * 512) 512 b m
  refine eq_of_forall_le_iff fun z => ?_
  refine (running V c t.val t.isLt b m z).trans ?_
  rw [le_colMinOn_iff]
  exact ⟨fun h n h1 h2 => h n h1 (by omega), fun h n h1 h2 => h n h1 (by omega)⟩

/-- An index of the array is in tile t's block when each coordinate is in the block's range. -/
theorem mem_cols_block (t : Fin cfg0.N) (i : S2x8x4096.Idx) :
    i ∈ ((cfg0.win 3).blk t).view.set
      ↔ ∀ a : Fin 3, win0_3.index t a * S1x8x4096.size a ≤ (i a).val ∧ (i a).val < win0_3.index t a * S1x8x4096.size a + S1x8x4096.size a := by
  show i ∈ ((View.whole main_v7_1).slice (win0_3.rect t)).set ↔ _
  rw [View.set_slice_whole, Rect.mem_set_unit]
  exact Iff.rfl

/-- The array of half column minima after the region. -/
theorem cols_final (c : Dev nD) : (dat0 V c).arrAt 3 cfg0.N = halfColMins (pts V c) (tgt V c) 512 :=
  (dat0 V c).arrAt_eq_of_cover 3 (halfColMins (pts V c) (tgt V c) 512) (fun t hf => cols_flushed V c t hf) fun i => by
    have hN : cfg0.N = 8 := N_0
    have hi0 : (i 0).val < 2 := (i 0).isLt
    have hi1 : (i 1).val < 8 := (i 1).isLt
    have hi2 : (i 2).val < 4096 := (i 2).isLt
    obtain ⟨-, -, -, -, -, -, -, -, e8, e9, e10⟩ := block_places (⟨4 * (i 0).val + 3, by omega⟩ : Fin cfg0.N)
    refine ⟨⟨4 * (i 0).val + 3, by omega⟩, (flush0_3 _).mpr (by dsimp only; omega), ?_⟩
    rw [mem_cols_block]
    intro a
    match a with
    | ⟨0, _⟩ =>
      show win0_3.index ⟨4 * (i 0).val + 3, _⟩ (0 : Fin 3) * 1 ≤ (i 0).val
        ∧ (i 0).val < win0_3.index ⟨4 * (i 0).val + 3, _⟩ (0 : Fin 3) * 1 + 1
      rw [e8]; dsimp only; omega
    | ⟨1, _⟩ =>
      show win0_3.index ⟨4 * (i 0).val + 3, _⟩ (1 : Fin 3) * 8 ≤ (i 1).val
        ∧ (i 1).val < win0_3.index ⟨4 * (i 0).val + 3, _⟩ (1 : Fin 3) * 8 + 8
      rw [e9]; omega
    | ⟨2, _⟩ =>
      show win0_3.index ⟨4 * (i 0).val + 3, _⟩ (2 : Fin 3) * 4096 ≤ (i 2).val
        ∧ (i 2).val < win0_3.index ⟨4 * (i 0).val + 3, _⟩ (2 : Fin 3) * 4096 + 4096
      rw [e10]; omega

end Cert.KernelIdeal.Region0

end
-- ==== Proof.Pieces1.lean ====
/-
  What one grid point of the second region leaves in its two output blocks.

  The body stores each output block whole. The block of row minima is one function of the two input blocks. The
  block of running column minima is the pointwise smaller of what the block held before and this point's column
  minima; at the first point of each half of the grid the body first resets the block to plus infinity, so there
  the value before is plus infinity. So after every point the first block is the row-minimum function of the
  point's input blocks, and the second is the running minimum started afresh at the first point of each half.
-/
import proofs.«147973_j85152021610990_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region1

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a first point the block of row minima is the row-minimum payload of the input blocks. -/
theorem rowBlock_first (c : Dev nD) (i : grid1.Coords) (a2 : Memref sig .tc .vmem S8x128x3 .f32) (h2 : a2.IsWhole)
    (a3 : Memref sig .tc .vmem S8x3x4096 .f32) (h3 : a3.IsWhole) (a4 : Memref sig .tc .vmem S128x8 .f32) (h4 : a4.IsWhole)
    (a5 : Memref sig .tc .vmem S1x8x4096 .f32) (h5 : a5.IsWhole) (hc : cond1_0 i)
    (x0 : Vec F S8x128x3 .f32) (x1 : Vec F S8x3x4096 .f32) :
    out1_A_2 c i a2 h2 a3 h3 a4 h4 a5 h5 hc x0 x1 = k1_pay3 x0 x1 := by
  unfold out1_A_2
  rw [View.read_writes_eq_canon _ _ _ (cover1_A_2 c i a2 h2 a3 h3 a4 h4 a5 h5 hc x0 x1)]
  unfold kernelRun1_A
  dsimp only
  rw [View.canon_unit_zero hz2]
  simp only [View.readAt_eq_ld, h2.read_unread, h3.read_unread, View.ld_unit_zero (S := S8x128x3) hz3,
    View.ld_unit_zero (S := S8x3x4096) hz3]

/-- At a later point likewise. -/
theorem rowBlock_later (c : Dev nD) (i : grid1.Coords) (a2 : Memref sig .tc .vmem S8x128x3 .f32) (h2 : a2.IsWhole)
    (a3 : Memref sig .tc .vmem S8x3x4096 .f32) (h3 : a3.IsWhole) (a4 : Memref sig .tc .vmem S128x8 .f32) (h4 : a4.IsWhole)
    (a5 : Memref sig .tc .vmem S1x8x4096 .f32) (h5 : a5.IsWhole) (hc : ¬cond1_0 i)
    (x0 : Vec F S8x128x3 .f32) (x1 : Vec F S8x3x4096 .f32) (xo : Vec F S1x8x4096 .f32) :
    out1_B_2 c i a2 h2 a3 h3 a4 h4 a5 h5 hc x0 x1 xo = k1_pay3 x0 x1 := by
  unfold out1_B_2
  rw [View.read_writes_eq_canon _ _ _ (cover1_B_2 c i a2 h2 a3 h3 a4 h4 a5 h5 hc x0 x1 xo)]
  unfold kernelRun1_B
  dsimp only
  rw [View.canon_unit_zero hz2]
  simp only [View.readAt_eq_ld, h2.read_unread, h3.read_unread, View.ld_unit_zero (S := S8x128x3) hz3,
    View.ld_unit_zero (S := S8x3x4096) hz3]

/-- At a first point the running block is the accumulation payload over the reset block (plus infinity). -/
theorem colBlock_first (c : Dev nD) (i : grid1.Coords) (a2 : Memref sig .tc .vmem S8x128x3 .f32) (h2 : a2.IsWhole)
    (a3 : Memref sig .tc .vmem S8x3x4096 .f32) (h3 : a3.IsWhole) (a4 : Memref sig .tc .vmem S128x8 .f32) (h4 : a4.IsWhole)
    (a5 : Memref sig .tc .vmem S1x8x4096 .f32) (h5 : a5.IsWhole) (hc : cond1_0 i)
    (x0 : Vec F S8x128x3 .f32) (x1 : Vec F S8x3x4096 .f32) :
    out1_A_3 c i a2 h2 a3 h3 a4 h4 a5 h5 hc x0 x1 = k1_pay4 x0 x1 k1_pay1 := by
  unfold out1_A_3
  rw [View.read_writes_eq_canon _ _ _ (cover1_A_3 c i a2 h2 a3 h3 a4 h4 a5 h5 hc x0 x1)]
  unfold kernelRun1_A
  dsimp only
  sl_unfold_words
  rw [View.canon_cons_unit_zero (S := S1x8x4096) hz3, View.readCov_unit_zero (S := S1x8x4096) _ hz3]
  simp only [View.readAt_eq_ld, h2.read_unread, h3.read_unread, View.ld_unit_zero (S := S8x128x3) hz3,
    View.ld_unit_zero (S := S8x3x4096) hz3]

/-- At a later point it is the accumulation payload over what the block held before. -/
theorem colBlock_later (c : Dev nD) (i : grid1.Coords) (a2 : Memref sig .tc .vmem S8x128x3 .f32) (h2 : a2.IsWhole)
    (a3 : Memref sig .tc .vmem S8x3x4096 .f32) (h3 : a3.IsWhole) (a4 : Memref sig .tc .vmem S128x8 .f32) (h4 : a4.IsWhole)
    (a5 : Memref sig .tc .vmem S1x8x4096 .f32) (h5 : a5.IsWhole) (hc : ¬cond1_0 i)
    (x0 : Vec F S8x128x3 .f32) (x1 : Vec F S8x3x4096 .f32) (xo : Vec F S1x8x4096 .f32) :
    out1_B_3 c i a2 h2 a3 h3 a4 h4 a5 h5 hc x0 x1 xo = k1_pay4 x0 x1 xo := by
  unfold out1_B_3
  rw [View.read_writes_eq_canon _ _ _ (cover1_B_3 c i a2 h2 a3 h3 a4 h4 a5 h5 hc x0 x1 xo)]
  unfold kernelRun1_B
  dsimp only
  rw [View.canon_unit_zero hz3]
  simp only [View.readAt_eq_ld, h2.read_unread, h3.read_unread, h5.read_unread, View.ld_unit_zero (S := S8x128x3) hz3,
    View.ld_unit_zero (S := S8x3x4096) hz3, View.ld_unit_zero (S := S1x8x4096) hz3]

end Cert.KernelIdeal.Region1

end
-- ==== Proof.Region1.lean ====
/-
  What the second region leaves in its two output arrays, as whole-array functions.

  The grid runs over 32 tiles of 128 points, 16 tiles per half. Tile t reads points 128 t … 128 t + 127 of every
  batch and all the targets. Its block of row minima is rows 128 t … 128 t + 127 of the array of row minima, so
  that array ends holding, at (n, b), the least squared distance from point n to the targets. The block of
  running column minima belongs to the tile's half: it is reset at the half's first tile and written back after
  its last, when it holds, at (b, m), the least squared distance to target m from the 2048 points of the half.
  The arrays are read as the region finds them, whatever wrote them before.
-/
import proofs.«147973_j85152021610990_2_alg».proof.Proof.Pieces1
import proofs.«147973_j85152021610990_2_alg».proof.Proof.BlockValues
import proofs.«147973_j85152021610990_2_alg».proof.Proof.RowRanges

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Chamfer Cert.KernelIdeal.Block

variable (V : (c : Dev nD) → (b : Ref sig .tc) → Buf (Elt Ideal) ((c : Thread nD τ).loc b))

/-- The region's points, [8, 4096, 3], and targets, [8, 3, 4096], as it finds them. -/
abbrev pts (c : Dev nD) : FVec Ideal S8x4096x3 .f32 := V c main_v5
abbrev tgt (c : Dev nD) : FVec Ideal S8x3x4096 .f32 := V c main_v6

/-- Where each window's block sits at tile t: the points' and the row minima's blocks at block row t, the
    targets whole, the running block at the tile's half. -/
theorem block_places : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = t.val ∧ win1_2.index t (1 : Fin 2) = 0
    ∧ win1_3.index t (0 : Fin 3) = t.val / 16 ∧ win1_3.index t (1 : Fin 3) = 0 ∧ win1_3.index t (2 : Fin 3) = 0 :=
  (by decide +kernel : ∀ t : Fin grid1.N, _)

/-- Tile t's block of points is points 128 t … 128 t + 127. -/
theorem pts_block (c : Dev nD) (t : Fin cfg1.N) (b : Fin 8) (r : Fin 128) (k : Fin 3) :
    (iblk1 V c 0 t : FVec Ideal S8x128x3 .f32) (ix3 b r k)
      = pts V c (ix3 b (⟨128 * t.val + r.val, by have := t.isLt; have hN : cfg1.N = 32 := N_1; have := r.isLt; omega⟩ : Fin 4096) k) := by
  obtain ⟨e0, e1, e2, -⟩ := block_places t
  unfold iblk1
  rw [View.read_apply]
  show V c main_v5 (((cfg1.win 0).blk t).view.emb (ix3 b r k)) = V c main_v5 _
  refine congrArg (V c main_v5) (funext fun a => Fin.ext ?_)
  match a with
  | ⟨0, _⟩ => show win1_0.index t (0 : Fin 3) * 8 + 1 * b.val = b.val; omega
  | ⟨1, _⟩ => show win1_0.index t (1 : Fin 3) * 128 + 1 * r.val = 128 * t.val + r.val; omega
  | ⟨2, _⟩ => show win1_0.index t (2 : Fin 3) * 3 + 1 * k.val = k.val; omega

/-- Every tile's block of targets is all the targets. -/
theorem tgt_block (c : Dev nD) (t : Fin cfg1.N) : (iblk1 V c 1 t : FVec Ideal S8x3x4096 .f32) = tgt V c := by
  obtain ⟨-, -, -, e3, e4, e5, -⟩ := block_places t
  funext j
  unfold iblk1
  rw [View.read_apply]
  show V c main_v6 (((cfg1.win 1).blk t).view.emb j) = V c main_v6 j
  refine congrArg (V c main_v6) (funext fun a => Fin.ext ?_)
  match a with
  | ⟨0, _⟩ => show win1_1.index t (0 : Fin 3) * 8 + 1 * (j 0).val = (j 0).val; omega
  | ⟨1, _⟩ => show win1_1.index t (1 : Fin 3) * 3 + 1 * (j 1).val = (j 1).val; omega
  | ⟨2, _⟩ => show win1_1.index t (2 : Fin 3) * 4096 + 1 * (j 2).val = (j 2).val; omega

/-- So a squared distance within tile t's blocks is the squared distance from point 128 t + r. -/
theorem dist_block (c : Dev nD) (t : Fin cfg1.N) (b : Fin 8) (r : Fin 128) (m : Fin 4096) :
    distAt (iblk1 V c 0 t : FVec Ideal S8x128x3 .f32) (iblk1 V c 1 t : FVec Ideal S8x3x4096 .f32) b r m
      = distAt (pts V c) (tgt V c) b (⟨128 * t.val + r.val, by have := t.isLt; have hN : cfg1.N = 32 := N_1; have := r.isLt; omega⟩ : Fin 4096) m := by
  unfold distAt
  rw [pts_block V c t b r 0, pts_block V c t b r 1, pts_block V c t b r 2, tgt_block V c t]

/-! ## The blocks after each tile -/

/-- After any tile the block of row minima is the row-minimum payload of the tile's blocks. -/
theorem rows_after (c : Dev nD) (t : Fin cfg1.N) :
    (outsAt1 V c t.val t.isLt).1 = k1_pay3 (iblk1 V c 0 t) (iblk1 V c 1 t) := by
  by_cases h0 : t.val % 16 = 0
  · exact (congrArg Prod.fst (outsAt1_A V c t h0)).trans
      (rowBlock_first c (grid1.coords t) (ms1_0 t) (hs1_0 t) (ms1_1 t) (hs1_1 t) (ms1_2 t) (hs1_2 t) (ms1_3 t) (hs1_3 t)
        ((hcond1_0 t).mpr h0) (iblk1 V c 0 t) (iblk1 V c 1 t))
  · exact (congrArg Prod.fst (outsAt1_B V c t h0)).trans
      (rowBlock_later c (grid1.coords t) (ms1_0 t) (hs1_0 t) (ms1_1 t) (hs1_1 t) (ms1_2 t) (hs1_2 t) (ms1_3 t) (hs1_3 t)
        (fun h => h0 ((hcond1_0 t).mp h)) (iblk1 V c 0 t) (iblk1 V c 1 t)
        (outsAt1 V c (t.val - 1) (Nat.lt_of_le_of_lt (Nat.sub_le _ _) t.isLt)).2)

/-- After the first tile of a half the running block is what the first case of the body leaves. -/
theorem cols_first_found (c : Dev nD) (t : Fin cfg1.N) (h0 : t.val % 16 = 0) :
    (outsAt1 V c t.val t.isLt).2
      = out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t) := by
  rw [outsAt1_A V c t h0]

/-- That is the accumulation payload over the reset block. -/
theorem cols_first (c : Dev nD) (t : Fin cfg1.N) (h0 : t.val % 16 = 0) :
    (outsAt1 V c t.val t.isLt).2 = k1_pay4 (F := Ideal) (iblk1 V c 0 t) (iblk1 V c 1 t) (k1_pay1 (F := Ideal)) :=
  (cols_first_found V c t h0).trans
    (colBlock_first (F := Ideal) c (grid1.coords t) (ms1_0 t) (hs1_0 t) (ms1_1 t) (hs1_1 t) (ms1_2 t) (hs1_2 t) (ms1_3 t) (hs1_3 t) ((hcond1_0 t).mpr h0) (iblk1 V c 0 t) (iblk1 V c 1 t))

/-- After a later tile it is what the other case of the body leaves, over what the tile before left. -/
theorem cols_later_found (c : Dev nD) (t : Fin cfg1.N) (h0 : ¬t.val % 16 = 0) :
    (outsAt1 V c t.val t.isLt).2
      = out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t)
          (outsAt1 V c (t.val - 1) (Nat.lt_of_le_of_lt (Nat.sub_le _ _) t.isLt)).2 := by
  rw [outsAt1_B V c t h0]

/-- That is the accumulation payload over the previous block. -/
theorem cols_later (c : Dev nD) (t : Fin cfg1.N) (h0 : ¬t.val % 16 = 0) :
    (outsAt1 V c t.val t.isLt).2 = k1_pay4 (F := Ideal) (iblk1 V c 0 t) (iblk1 V c 1 t)
      (outsAt1 V c (t.val - 1) (Nat.lt_of_le_of_lt (Nat.sub_le _ _) t.isLt)).2 :=
  (cols_later_found V c t h0).trans
    (colBlock_later (F := Ideal) c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t)
      (outsAt1 V c (t.val - 1) (Nat.lt_of_le_of_lt (Nat.sub_le _ _) t.isLt)).2)

/-- A block [1, 8, 4096] holds, at (b, m), the least squared distance to target m from points lo … hi - 1. -/
def RunningMin (c : Dev nD) (A : FVec Ideal S1x8x4096 .f32) (lo hi : ℕ) : Prop :=
  ∀ (b : Fin 8) (m : Fin 4096) (z : EReal),
    z ≤ A (ix3 (0 : Fin 1) b m) ↔ ∀ n : Fin 4096, lo ≤ n.val → n.val < hi → z ≤ distAt (pts V c) (tgt V c) b n m

/-- At the first tile of a half the running block is the tile's own column minima. -/
theorem running_first (c : Dev nD) (t : Fin cfg1.N) (h0 : t.val % 16 = 0) :
    RunningMin V c (outsAt1 V c t.val t.isLt).2 (t.val / 16 * 2048) (t.val * 128 + 128) := by
  have hN : cfg1.N = 32 := N_1
  have ht := t.isLt
  intro b m z
  rw [cols_first V c t h0]
  refine (le_colBlock1_iff (iblk1 V c 0 t) (iblk1 V c 1 t) (k1_pay1 (F := Ideal)) 0 b m z).trans ?_
  constructor
  · rintro ⟨-, hr⟩ n h1 h2
    exact (forall_run_iff (fun n => z ≤ distAt (pts V c) (tgt V c) b n m) (128 * t.val) (by omega)).mp
      (fun r => le_of_le_of_eq (hr r) (dist_block V c t b r m)) n (by omega) (by omega)
  · intro hall
    refine ⟨?_, fun r => ?_⟩
    · rw [reset1_read]; exact le_top
    · exact le_of_le_of_eq (hall _ (by dsimp only; omega) (by have := r.isLt; dsimp only; omega)) (dist_block V c t b r m).symm

/-- At a later tile of a half it is the smaller of what it held and the tile's column minima. -/
theorem running_later (c : Dev nD) (t : Fin cfg1.N) (h0 : ¬t.val % 16 = 0)
    (ih : RunningMin V c (outsAt1 V c (t.val - 1) (Nat.lt_of_le_of_lt (Nat.sub_le _ _) t.isLt)).2
      ((t.val - 1) / 16 * 2048) ((t.val - 1) * 128 + 128)) :
    RunningMin V c (outsAt1 V c t.val t.isLt).2 (t.val / 16 * 2048) (t.val * 128 + 128) := by
  have hN : cfg1.N = 32 := N_1
  have ht := t.isLt
  intro b m z
  rw [cols_later V c t h0]
  refine (le_colBlock1_iff (iblk1 V c 0 t) (iblk1 V c 1 t)
    (outsAt1 V c (t.val - 1) (Nat.lt_of_le_of_lt (Nat.sub_le _ _) t.isLt)).2 0 b m z).trans ?_
  rw [ih b m z]
  constructor
  · rintro ⟨h1, h2⟩ n ha hb
    by_cases hn : n.val < 128 * t.val
    · exact h1 n (by omega) (by omega)
    · exact (forall_run_iff (fun n => z ≤ distAt (pts V c) (tgt V c) b n m) (128 * t.val) (by omega)).mp
        (fun r => le_of_le_of_eq (h2 r) (dist_block V c t b r m)) n (by omega) (by omega)
  · intro hall
    refine ⟨fun n ha hb => hall n (by omega) (by omega), fun r => ?_⟩
    exact le_of_le_of_eq (hall _ (by dsimp only; omega) (by have := r.isLt; dsimp only; omega)) (dist_block V c t b r m).symm

/-- After tile n the running block covers the rows from the start of the tile's half through the tile. -/
theorem running (c : Dev nD) : ∀ (n : ℕ) (h : n < cfg1.N),
    RunningMin V c (outsAt1 V c n h).2 (n / 16 * 2048) (n * 128 + 128) := by
  intro n
  induction n with
  | zero => intro h; exact running_first V c ⟨0, h⟩ rfl
  | succ n ih =>
    intro h
    by_cases h0 : (n + 1) % 16 = 0
    · exact running_first V c ⟨n + 1, h⟩ h0
    · exact running_later V c ⟨n + 1, h⟩ h0 (ih (Nat.lt_of_succ_lt h))

/-! ## The array of row minima -/

/-- What tile t writes back is rows 128 t … 128 t + 127 of the row minima. -/
theorem rows_flushed (c : Dev nD) (t : Fin cfg1.N) :
    (dat1 V c).flushed 2 t = ((cfg1.win 2).blk t).view.read (Elt Ideal) (rowMins (pts V c) (tgt V c)) := by
  obtain ⟨-, -, -, -, -, -, e6, e7, -⟩ := block_places t
  have hN : cfg1.N = 32 := N_1
  have ht := t.isLt
  show (cfg1.win 2).cut (grid1.coords t) ((dat1 V c).after 2 t) = _
  rw [after1_2, rows_after]
  funext j
  obtain ⟨r, b, rfl⟩ : ∃ (r : Fin 128) (b : Fin 8), j = ix2 r b := ⟨j 0, j 1, eq_ix2 j⟩
  have hr := r.isLt
  have hemb : ((cfg1.win 2).blk t).view.emb (ix2 r b) = ix2 (⟨128 * t.val + r.val, by omega⟩ : Fin 4096) b := by
    funext a; apply Fin.ext
    match a with
    | ⟨0, _⟩ => show win1_2.index t (0 : Fin 2) * 128 + 1 * r.val = 128 * t.val + r.val; omega
    | ⟨1, _⟩ => show win1_2.index t (1 : Fin 2) * 8 + 1 * b.val = b.val; omega
  show k1_pay3 (iblk1 V c 0 t) (iblk1 V c 1 t) (ix2 r b) = rowMins (pts V c) (tgt V c) (((cfg1.win 2).blk t).view.emb (ix2 r b))
  rw [hemb]
  show _ = rowMinAt (pts V c) (tgt V c) b (⟨128 * t.val + r.val, by omega⟩ : Fin 4096)
  refine eq_of_forall_le_iff fun z => ?_
  refine (le_rowBlock1_iff (iblk1 V c 0 t) (iblk1 V c 1 t) r b z).trans ?_
  rw [le_rowMinAt_iff]
  exact forall_congr' fun m => by rw [dist_block V c t b r m]

/-- An index of the array is in tile t's block when each coordinate is in the block's range. -/
theorem mem_rows_block (t : Fin cfg1.N) (i : S4096x8.Idx) :
    i ∈ ((cfg1.win 2).blk t).view.set
      ↔ ∀ a : Fin 2, win1_2.index t a * S128x8.size a ≤ (i a).val ∧ (i a).val < win1_2.index t a * S128x8.size a + S128x8.size a := by
  show i ∈ ((View.whole main_v9_0).slice (win1_2.rect t)).set ↔ _
  rw [View.set_slice_whole, Rect.mem_set_unit]
  exact Iff.rfl

/-- The array of row minima after the region. -/
theorem rows_final (c : Dev nD) : (dat1 V c).arrAt 2 cfg1.N = rowMins (pts V c) (tgt V c) :=
  (dat1 V c).arrAt_eq_of_cover 2 (rowMins (pts V c) (tgt V c)) (fun t _ => rows_flushed V c t) fun i => by
    have hN : cfg1.N = 32 := N_1
    have hi0 : (i 0).val < 4096 := (i 0).isLt
    have hi1 : (i 1).val < 8 := (i 1).isLt
    obtain ⟨-, -, -, -, -, -, e6, e7, -⟩ := block_places (⟨(i 0).val / 128, by omega⟩ : Fin cfg1.N)
    refine ⟨⟨(i 0).val / 128, by omega⟩, flush1_2 _, ?_⟩
    rw [mem_rows_block]
    intro a
    match a with
    | ⟨0, _⟩ =>
      show win1_2.index ⟨(i 0).val / 128, _⟩ (0 : Fin 2) * 128 ≤ (i 0).val ∧ (i 0).val < win1_2.index ⟨(i 0).val / 128, _⟩ (0 : Fin 2) * 128 + 128
      rw [e6]; dsimp only; omega
    | ⟨1, _⟩ =>
      show win1_2.index ⟨(i 0).val / 128, _⟩ (1 : Fin 2) * 8 ≤ (i 1).val ∧ (i 1).val < win1_2.index ⟨(i 0).val / 128, _⟩ (1 : Fin 2) * 8 + 8
      rw [e7]; omega

/-! ## The array of column minima over each half -/

/-- What the last tile of a half writes back is that half's block of the column minima. -/
theorem cols_flushed (c : Dev nD) (t : Fin cfg1.N) (hf : (cfg1.win 3).flush t = true) :
    (dat1 V c).flushed 3 t = ((cfg1.win 3).blk t).view.read (Elt Ideal) (halfColMins (pts V c) (tgt V c) 2048) := by
  obtain ⟨-, -, -, -, -, -, -, -, e8, e9, e10⟩ := block_places t
  have hN : cfg1.N = 32 := N_1
  have ht := t.isLt
  have h3 : t.val % 16 = 15 := (flush1_3 t).mp hf
  show (cfg1.win 3).cut (grid1.coords t) ((dat1 V c).after 3 t) = _
  rw [after1_3]
  funext j
  obtain ⟨u, b, m, rfl⟩ : ∃ (u : Fin 1) (b : Fin 8) (m : Fin 4096), j = ix3 u b m := ⟨j 0, j 1, j 2, eq_ix3 j⟩
  obtain rfl : u = 0 := Fin.ext (by omega)
  have hemb : ((cfg1.win 3).blk t).view.emb (ix3 (0 : Fin 1) b m) = ix3 (⟨t.val / 16, by omega⟩ : Fin 2) b m := by
    funext a; apply Fin.ext
    match a with
    | ⟨0, _⟩ => show win1_3.index t (0 : Fin 3) * 1 + 1 * 0 = t.val / 16; omega
    | ⟨1, _⟩ => show win1_3.index t (1 : Fin 3) * 8 + 1 * b.val = b.val; omega
    | ⟨2, _⟩ => show win1_3.index t (2 : Fin 3) * 4096 + 1 * m.val = m.val; omega
  show (outsAt1 V c t.val t.isLt).2 (ix3 (0 : Fin 1) b m)
    = halfColMins (pts V c) (tgt V c) 2048 (((cfg1.win 3).blk t).view.emb (ix3 (0 : Fin 1) b m))
  rw [hemb]
  show _ = colMinOn (pts V c) (tgt V c) (t.val / 16 * 2048) 2048 b m
  refine eq_of_forall_le_iff fun z => ?_
  refine (running V c t.val t.isLt b m z).trans ?_
  rw [le_colMinOn_iff]
  exact ⟨fun h n h1 h2 => h n h1 (by omega), fun h n h1 h2 => h n h1 (by omega)⟩

/-- An index of the array is in tile t's block when each coordinate is in the block's range. -/
theorem mem_cols_block (t : Fin cfg1.N) (i : S2x8x4096.Idx) :
    i ∈ ((cfg1.win 3).blk t).view.set
      ↔ ∀ a : Fin 3, win1_3.index t a * S1x8x4096.size a ≤ (i a).val ∧ (i a).val < win1_3.index t a * S1x8x4096.size a + S1x8x4096.size a := by
  show i ∈ ((View.whole main_v9_1).slice (win1_3.rect t)).set ↔ _
  rw [View.set_slice_whole, Rect.mem_set_unit]
  exact Iff.rfl

/-- The array of half column minima after the region. -/
theorem cols_final (c : Dev nD) : (dat1 V c).arrAt 3 cfg1.N = halfColMins (pts V c) (tgt V c) 2048 :=
  (dat1 V c).arrAt_eq_of_cover 3 (halfColMins (pts V c) (tgt V c) 2048) (fun t hf => cols_flushed V c t hf) fun i => by
    have hN : cfg1.N = 32 := N_1
    have hi0 : (i 0).val < 2 := (i 0).isLt
    have hi1 : (i 1).val < 8 := (i 1).isLt
    have hi2 : (i 2).val < 4096 := (i 2).isLt
    obtain ⟨-, -, -, -, -, -, -, -, e8, e9, e10⟩ := block_places (⟨16 * (i 0).val + 15, by omega⟩ : Fin cfg1.N)
    refine ⟨⟨16 * (i 0).val + 15, by omega⟩, (flush1_3 _).mpr (by dsimp only; omega), ?_⟩
    rw [mem_cols_block]
    intro a
    match a with
    | ⟨0, _⟩ =>
      show win1_3.index ⟨16 * (i 0).val + 15, _⟩ (0 : Fin 3) * 1 ≤ (i 0).val
        ∧ (i 0).val < win1_3.index ⟨16 * (i 0).val + 15, _⟩ (0 : Fin 3) * 1 + 1
      rw [e8]; dsimp only; omega
    | ⟨1, _⟩ =>
      show win1_3.index ⟨16 * (i 0).val + 15, _⟩ (1 : Fin 3) * 8 ≤ (i 1).val
        ∧ (i 1).val < win1_3.index ⟨16 * (i 0).val + 15, _⟩ (1 : Fin 3) * 8 + 8
      rw [e9]; omega
    | ⟨2, _⟩ =>
      show win1_3.index ⟨16 * (i 0).val + 15, _⟩ (2 : Fin 3) * 4096 ≤ (i 2).val
        ∧ (i 2).val < win1_3.index ⟨16 * (i 0).val + 15, _⟩ (2 : Fin 3) * 4096 + 4096
      rw [e10]; omega

end Cert.KernelIdeal.Region1

end
-- ==== Proof.HostStretches.lean ====
/-
  The host operations around the two regions, read.

  Before the first region the host forms the keypoint term — the mean of the squared coordinate differences of
  the two keypoint arrays, a sum from zero divided by 240 — and re-lays the three point clouds: the coarse and
  the fine clouds point-major, [8, N, 3], and the targets coordinate-major, [8, 3, 4096]. Between the regions it
  merges the first region's two half column minima, entry by entry, by a minimum from plus infinity over the
  two halves. After the second region it merges that region's halves the same way, takes the four means (each
  a sum from zero divided by the number of entries) and adds: keypoint term plus the coarse pair, plus the fine
  pair. Each region's output arrays are what its pipeline leaves; every other buffer passes through a region
  untouched.
-/
import proofs.«147973_j85152021610990_2_alg».proof.Proof.Gen.KernelIdeal.Frame
import Idealize.ShloMosaic.Lib.StableHlo.Run
import Idealize.ShloMosaic.PureOps.Ideal

noncomputable section

open Idealize.ShloMosaic Idealize.ShloMosaic.TcCoe Idealize.SL.Sem Idealize.ShloMosaic.StableHlo

namespace Cert.KernelIdeal.Stretches

open Cert.KernelIdeal Cert.KernelIdeal.Gen

/-- The keypoint term: the mean of the squared differences. -/
def keypointTerm (a0 a1 : FVec Ideal S8x10x3 .f32) : FVec Ideal S_ .f32 :=
  Host.divf (F := Ideal)
    (Host.reduceAdd (F := Ideal) (mulf (subf a0 a1) (subf a0 a1)) (constant (F := Ideal) S_ .f32 0x00000000#32) reducesTo_S8x10x3_S_d0_1_2 h_S_)
    (constant (F := Ideal) S_ .f32 0x43700000#32)

/-- The two half column minima merged: at (b, m) the smaller of the two halves' entries, from plus infinity. -/
def mergeHalves (x : FVec Ideal S2x8x4096 .f32) : FVec Ideal S8x4096 .f32 :=
  Host.reduce (FloatOps.minimumf (F := Ideal)) x (constant (F := Ideal) S_ .f32 0x7F800000#32) reducesTo_S2x8x4096_S8x4096_d0 h_S_

/-- The loss from the keypoint term and the four arrays of minima: the four means, paired and added. -/
def lossOf (kp : FVec Ideal S_ .f32) (r1 : FVec Ideal S1024x8 .f32) (c1 : FVec Ideal S8x4096 .f32)
    (r2 : FVec Ideal S4096x8 .f32) (c2 : FVec Ideal S8x4096 .f32) : FVec Ideal S_ .f32 :=
  addf (addf kp (addf
      (Host.divf (F := Ideal) (Host.reduceAdd (F := Ideal) r1 (constant (F := Ideal) S_ .f32 0x00000000#32) reducesTo_S1024x8_S_d0_1 h_S_) (constant (F := Ideal) S_ .f32 0x46000000#32))
      (Host.divf (F := Ideal) (Host.reduceAdd (F := Ideal) c1 (constant (F := Ideal) S_ .f32 0x00000000#32) reducesTo_S8x4096_S_d0_1 h_S_) (constant (F := Ideal) S_ .f32 0x47000000#32))))
    (addf
      (Host.divf (F := Ideal) (Host.reduceAdd (F := Ideal) r2 (constant (F := Ideal) S_ .f32 0x00000000#32) reducesTo_S4096x8_S_d0_1 h_S_) (constant (F := Ideal) S_ .f32 0x47000000#32))
      (Host.divf (F := Ideal) (Host.reduceAdd (F := Ideal) c2 (constant (F := Ideal) S_ .f32 0x00000000#32) reducesTo_S8x4096_S_d0_1 h_S_) (constant (F := Ideal) S_ .f32 0x47000000#32)))

variable (m : (ℓ : Loc nD τ sig) → Buf (Elt Ideal) ℓ) (ρ : Dev nD → PrngReg)

/-! ## What the regions find -/

/-- The first region's points: the coarse cloud, point-major. -/
theorem entry0_pts (c : Dev nD) : (V1 m ρ c main_v4 : FVec Ideal S8x1024x3 .f32)
    = transpose S8x1024x3 [0, 2, 1] (m ((c : Thread nD τ).loc main_arg2)) transposes_S8x3x1024_S8x1024x3_0_2_1 := by
  show StableHlo.after hostOps0 (W0 m ρ c) (Proc.devRef .tc main_v4) = _
  after_results
  all_goals rfl

/-- The first region's targets: coordinate-major. -/
theorem entry0_tgt (c : Dev nD) : (V1 m ρ c main_v6 : FVec Ideal S8x3x4096 .f32)
    = transpose S8x3x4096 [0, 2, 1] (m ((c : Thread nD τ).loc main_arg4)) transposes_S8x4096x3_S8x3x4096_0_2_1 := by
  show StableHlo.after hostOps0 (W0 m ρ c) (Proc.devRef .tc main_v6) = _
  after_results
  all_goals rfl

/-- The second region's points: the fine cloud, point-major (the first region and the merge between leave it alone). -/
theorem entry1_pts (c : Dev nD) : (V3 m ρ c main_v5 : FVec Ideal S8x4096x3 .f32)
    = transpose S8x4096x3 [0, 2, 1] (m ((c : Thread nD τ).loc main_arg3)) transposes_S8x3x4096_S8x4096x3_0_2_1 := by
  have e1 : V3 m ρ c main_v5 = W2 m ρ c (Proc.devRef .tc main_v5) := by
    show StableHlo.after hostOps1 (W2 m ρ c) (Proc.devRef .tc main_v5) = _
    after_results
    all_goals rfl
  have e2 : W1 m ρ c (Proc.devRef .tc main_v5)
      = transpose S8x4096x3 [0, 2, 1] (m ((c : Thread nD τ).loc main_arg3)) transposes_S8x3x4096_S8x4096x3_0_2_1 := by
    show StableHlo.after hostOps0 (W0 m ρ c) (Proc.devRef .tc main_v5) = _
    after_results
    all_goals rfl
  exact (e1.trans (W2_of_ne m ρ c main_v5 (by decide))).trans e2

/-- The second region's targets: the same coordinate-major array (the first region only reads it). -/
theorem entry1_tgt (c : Dev nD) : (V3 m ρ c main_v6 : FVec Ideal S8x3x4096 .f32)
    = transpose S8x3x4096 [0, 2, 1] (m ((c : Thread nD τ).loc main_arg4)) transposes_S8x4096x3_S8x3x4096_0_2_1 := by
  have e1 : V3 m ρ c main_v6 = W2 m ρ c (Proc.devRef .tc main_v6) := by
    show StableHlo.after hostOps1 (W2 m ρ c) (Proc.devRef .tc main_v6) = _
    after_results
    all_goals rfl
  have e2 : W1 m ρ c (Proc.devRef .tc main_v6)
      = transpose S8x3x4096 [0, 2, 1] (m ((c : Thread nD τ).loc main_arg4)) transposes_S8x4096x3_S8x3x4096_0_2_1 := by
    show StableHlo.after hostOps0 (W0 m ρ c) (Proc.devRef .tc main_v6) = _
    after_results
    all_goals rfl
  have e3 : W2 m ρ c (Proc.devRef .tc main_v6) = W1 m ρ c (Proc.devRef .tc main_v6) :=
    ((W2_arr m ρ c 1).trans ((dat0 (V1 m ρ) c).arrAt_in 1 rfl _)).trans (A_eq0 (V1 m ρ) c 1)
  exact (e1.trans e3).trans e2

/-! ## What the last stretch leaves in the result buffer -/

/-- The last stretch, over whatever the second region leaves. -/
theorem last_stretch (c : Dev nD) : (W5 m ρ c (Proc.devRef .tc main_v22) : FVec Ideal S_ .f32)
    = lossOf (W4 m ρ c (Proc.devRef .tc main_v3)) (W4 m ρ c (Proc.devRef .tc main_v7_0)) (W4 m ρ c (Proc.devRef .tc main_v8))
        (W4 m ρ c (Proc.devRef .tc main_v9_0)) (mergeHalves (W4 m ρ c (Proc.devRef .tc main_v9_1))) := by
  show StableHlo.after hostOps2 (W4 m ρ c) (Proc.devRef .tc main_v22) = _
  generalize W4 m ρ c = W
  after_results_simp
  all_goals rfl

/-- The keypoint term reaches the last stretch untouched by the regions and the merge. -/
theorem keypoint_kept (c : Dev nD) : (W4 m ρ c (Proc.devRef .tc main_v3) : FVec Ideal S_ .f32)
    = keypointTerm (m ((c : Thread nD τ).loc main_arg0)) (m ((c : Thread nD τ).loc main_arg1)) := by
  have e1 : W3 m ρ c (Proc.devRef .tc main_v3) = W2 m ρ c (Proc.devRef .tc main_v3) := by
    show StableHlo.after hostOps1 (W2 m ρ c) (Proc.devRef .tc main_v3) = _
    after_results
    all_goals rfl
  have e2 : (W1 m ρ c (Proc.devRef .tc main_v3) : FVec Ideal S_ .f32)
      = keypointTerm (m ((c : Thread nD τ).loc main_arg0)) (m ((c : Thread nD τ).loc main_arg1)) := by
    show StableHlo.after hostOps0 (W0 m ρ c) (Proc.devRef .tc main_v3) = _
    after_results
    all_goals rfl
  exact (((W4_of_ne m ρ c main_v3 (by decide)).trans e1).trans (W2_of_ne m ρ c main_v3 (by decide))).trans e2

/-- The first region's row minima reach the last stretch untouched. -/
theorem rows0_kept (c : Dev nD) : (W4 m ρ c (Proc.devRef .tc main_v7_0) : FVec Ideal S1024x8 .f32)
    = (dat0 (V1 m ρ) c).arrAt 2 cfg0.N := by
  have e1 : W3 m ρ c (Proc.devRef .tc main_v7_0) = W2 m ρ c (Proc.devRef .tc main_v7_0) := by
    show StableHlo.after hostOps1 (W2 m ρ c) (Proc.devRef .tc main_v7_0) = _
    after_results
    all_goals rfl
  exact ((W4_of_ne m ρ c main_v7_0 (by decide)).trans e1).trans (W2_arr m ρ c 2)

/-- The merged column minima of the first region reach the last stretch untouched. -/
theorem cols0_kept (c : Dev nD) : (W4 m ρ c (Proc.devRef .tc main_v8) : FVec Ideal S8x4096 .f32)
    = mergeHalves ((dat0 (V1 m ρ) c).arrAt 3 cfg0.N) := by
  have e1 : (W3 m ρ c (Proc.devRef .tc main_v8) : FVec Ideal S8x4096 .f32) = mergeHalves (W2 m ρ c (Proc.devRef .tc main_v7_1)) := by
    show StableHlo.after hostOps1 (W2 m ρ c) (Proc.devRef .tc main_v8) = _
    after_results
    all_goals rfl
  exact ((W4_of_ne m ρ c main_v8 (by decide)).trans e1).trans (congrArg mergeHalves (W2_arr m ρ c 3))

/-- So the result buffer ends at the loss of the keypoint term and the two regions' arrays. -/
theorem result_read (c : Dev nD) : (W5 m ρ c (Proc.devRef .tc main_v22) : FVec Ideal S_ .f32)
    = lossOf (keypointTerm (m ((c : Thread nD τ).loc main_arg0)) (m ((c : Thread nD τ).loc main_arg1)))
        ((dat0 (V1 m ρ) c).arrAt 2 cfg0.N) (mergeHalves ((dat0 (V1 m ρ) c).arrAt 3 cfg0.N))
        ((dat1 (V3 m ρ) c).arrAt 2 cfg1.N) (mergeHalves ((dat1 (V3 m ρ) c).arrAt 3 cfg1.N)) := by
  rw [last_stretch, keypoint_kept, rows0_kept, cols0_kept]
  exact congrArg₂ (fun r c2 => lossOf _ _ _ r (mergeHalves c2)) (W4_arr m ρ c 2) (W4_arr m ρ c 3)

end Cert.KernelIdeal.Stretches

end
-- ==== Proof.RefTables.lean ====
/-
  The reference's tables of squared distances and their minima, read.

  For each cloud the reference forms, at (b, n, m), the sum of the point's squared coordinates plus the sum of the
  target's, minus twice the sum of the coordinate products, clamped at zero: the expanded squared distance of the
  stored coordinates. Its row minima at (b, n) and column minima at (b, m) are minima from plus infinity along
  the target axis and along the point axis of that table.
-/
import proofs.«147973_j85152021610990_2_alg».proof.Proof.Gen.ReferenceIdeal.Read
import proofs.«147973_j85152021610990_2_alg».proof.Proof.LibMinAxes
import proofs.«147973_j85152021610990_2_alg».proof.Proof.SquaredDistance

noncomputable section

namespace Cert.ReferenceIdeal.Tables

open Cert.ReferenceIdeal Cert.ReferenceIdeal.Read Idealize.ShloMosaic Idealize.ShloMosaic.ValueIdx
open Cert.Chamfer Cert.MinReads Cert.MinAxes

/-- The f32 word 0x40000000 is the number two. -/
theorem ofBits_two : Ideal.ofBits .f32 0x40000000#32 = (2 : EReal) := by
  have h : Ideal.ofBits .f32 0x40000000#32 = ((2 : ℝ) : EReal) := by
    simp [Ideal.ofBits, Ideal.ieee, -EReal.coe_mul]; norm_num
  rw [h]; norm_cast

/-! ## The coarse cloud against the targets -/

/-- The reference's table entry (b, n, m): the expanded, clamped squared distance of the stored coordinates. -/
theorem coarse_table (x : (⟨S8x3x1024, .f32⟩ : BufTy).Contents (Elt Ideal)) (y : (⟨S8x4096x3, .f32⟩ : BufTy).Contents (Elt Ideal))
    (b : Fin 8) (n : Fin 1024) (m : Fin 4096) :
    val_main_v19 (F := Ideal) x y (ix3 b n m)
      = sqDistExpanded (x (ix3 b (0 : Fin 3) n)) (x (ix3 b (1 : Fin 3) n)) (x (ix3 b (2 : Fin 3) n))
          (y (ix3 b m (0 : Fin 3))) (y (ix3 b m (1 : Fin 3))) (y (ix3 b m (2 : Fin 3))) := by
  have eP : ∀ k : Fin 3, idx_main_v4 (idx_main_v6 (idx_main_v10 (idx_main_v12 (ix3 b n m))) k) = ix3 b k n :=
    fun k => funext fun a => Fin.ext (by match a with | ⟨0, _⟩ => rfl | ⟨1, _⟩ => rfl | ⟨2, _⟩ => rfl)
  have eQ : ∀ k : Fin 3, idx_main_v8 (idx_main_v11 (idx_main_v13 (ix3 b n m))) k = ix3 b m k :=
    fun k => funext fun a => Fin.ext (by match a with | ⟨0, _⟩ => rfl | ⟨1, _⟩ => rfl | ⟨2, _⟩ => rfl)
  have eL : ∀ k : Fin 3, idx_main_v4 (lidx_main_v9 (ix3 b n m) k) = ix3 b k n :=
    fun k => funext fun a => Fin.ext (by match a with | ⟨0, _⟩ => rfl | ⟨1, _⟩ => rfl | ⟨2, _⟩ => rfl)
  have eR : ∀ k : Fin 3, ridx_main_v9 (ix3 b n m) k = ix3 b m k :=
    fun k => funext fun a => Fin.ext (by match a with | ⟨0, _⟩ => rfl | ⟨1, _⟩ => rfl | ⟨2, _⟩ => rfl)
  rw [val_main_v19_apply, val_main_v17_apply, val_main_v14_apply, val_main_v12_apply, val_main_v10_apply,
    val_main_v6_apply, val_main_v13_apply, val_main_v11_apply, val_main_v8_apply, val_main_v16_apply,
    val_main_v15_apply, val_main_v9_apply, val_main_v18_apply]
  simp only [Fin.sum_univ_three, val_main_v5_apply, val_main_v4_apply, val_main_v7_apply, eP, eQ, eL, eR,
    val_main_cst_1_apply, val_main_cst_2_apply, val_main_cst_3_apply, val_main_cst_4_apply,
    Ideal.mulf_def, Ideal.addf_def, Ideal.subf_def, Ideal.maximumf_def, Ideal.ofBits_def, Ideal.ofBits_zero_f32, ofBits_two]
  rfl

/-- Below the reference's row minimum at (b, n) is below every table entry (b, n, m). -/
theorem le_coarse_rows_iff (x : (⟨S8x3x1024, .f32⟩ : BufTy).Contents (Elt Ideal)) (y : (⟨S8x4096x3, .f32⟩ : BufTy).Contents (Elt Ideal))
    (b : Fin 8) (n : Fin 1024) (z : EReal) :
    z ≤ val_main_v20 (F := Ideal) x y (ix2 b n) ↔ ∀ m : Fin 4096, z ≤ val_main_v19 (F := Ideal) x y (ix3 b n m) := by
  unfold val_main_v20
  exact le_hostMin_last_iff (a := 8) (b := 1024) (c := 4096) _ _ _ (by decide) _
    ((val_main_cst_5_apply (F := Ideal) ix0).trans ofBits_pos_inf) b n z

/-- Below the reference's column minimum at (b, m) is below every table entry (b, n, m). -/
theorem le_coarse_cols_iff (x : (⟨S8x3x1024, .f32⟩ : BufTy).Contents (Elt Ideal)) (y : (⟨S8x4096x3, .f32⟩ : BufTy).Contents (Elt Ideal))
    (b : Fin 8) (m : Fin 4096) (z : EReal) :
    z ≤ val_main_v21 (F := Ideal) x y (ix2 b m) ↔ ∀ n : Fin 1024, z ≤ val_main_v19 (F := Ideal) x y (ix3 b n m) := by
  unfold val_main_v21
  exact le_hostMin_mid_iff (a := 8) (b := 1024) (c := 4096) _ _ _ (by decide) _
    ((val_main_cst_6_apply (F := Ideal) ix0).trans ofBits_pos_inf) b m z

/-! ## The fine cloud against the targets -/

/-- The reference's table entry (b, n, m): the expanded, clamped squared distance of the stored coordinates. -/
theorem fine_table (x : (⟨S8x3x4096, .f32⟩ : BufTy).Contents (Elt Ideal)) (y : (⟨S8x4096x3, .f32⟩ : BufTy).Contents (Elt Ideal))
    (b : Fin 8) (n : Fin 4096) (m : Fin 4096) :
    val_main_v37 (F := Ideal) x y (ix3 b n m)
      = sqDistExpanded (x (ix3 b (0 : Fin 3) n)) (x (ix3 b (1 : Fin 3) n)) (x (ix3 b (2 : Fin 3) n))
          (y (ix3 b m (0 : Fin 3))) (y (ix3 b m (1 : Fin 3))) (y (ix3 b m (2 : Fin 3))) := by
  have eP : ∀ k : Fin 3, idx_main_v22 (idx_main_v24 (idx_main_v28 (idx_main_v30 (ix3 b n m))) k) = ix3 b k n :=
    fun k => funext fun a => Fin.ext (by match a with | ⟨0, _⟩ => rfl | ⟨1, _⟩ => rfl | ⟨2, _⟩ => rfl)
  have eQ : ∀ k : Fin 3, idx_main_v26 (idx_main_v29 (idx_main_v31 (ix3 b n m))) k = ix3 b m k :=
    fun k => funext fun a => Fin.ext (by match a with | ⟨0, _⟩ => rfl | ⟨1, _⟩ => rfl | ⟨2, _⟩ => rfl)
  have eL : ∀ k : Fin 3, idx_main_v22 (lidx_main_v27 (ix3 b n m) k) = ix3 b k n :=
    fun k => funext fun a => Fin.ext (by match a with | ⟨0, _⟩ => rfl | ⟨1, _⟩ => rfl | ⟨2, _⟩ => rfl)
  have eR : ∀ k : Fin 3, ridx_main_v27 (ix3 b n m) k = ix3 b m k :=
    fun k => funext fun a => Fin.ext (by match a with | ⟨0, _⟩ => rfl | ⟨1, _⟩ => rfl | ⟨2, _⟩ => rfl)
  rw [val_main_v37_apply, val_main_v35_apply, val_main_v32_apply, val_main_v30_apply, val_main_v28_apply,
    val_main_v24_apply, val_main_v31_apply, val_main_v29_apply, val_main_v26_apply, val_main_v34_apply,
    val_main_v33_apply, val_main_v27_apply, val_main_v36_apply]
  simp only [Fin.sum_univ_three, val_main_v23_apply, val_main_v22_apply, val_main_v25_apply, eP, eQ, eL, eR,
    val_main_cst_7_apply, val_main_cst_8_apply, val_main_cst_9_apply, val_main_cst_10_apply,
    Ideal.mulf_def, Ideal.addf_def, Ideal.subf_def, Ideal.maximumf_def, Ideal.ofBits_def, Ideal.ofBits_zero_f32, ofBits_two]
  rfl

/-- Below the reference's row minimum at (b, n) is below every table entry (b, n, m). -/
theorem le_fine_rows_iff (x : (⟨S8x3x4096, .f32⟩ : BufTy).Contents (Elt Ideal)) (y : (⟨S8x4096x3, .f32⟩ : BufTy).Contents (Elt Ideal))
    (b : Fin 8) (n : Fin 4096) (z : EReal) :
    z ≤ val_main_v38 (F := Ideal) x y (ix2 b n) ↔ ∀ m : Fin 4096, z ≤ val_main_v37 (F := Ideal) x y (ix3 b n m) := by
  unfold val_main_v38
  exact le_hostMin_last_iff (a := 8) (b := 4096) (c := 4096) _ _ _ (by decide) _
    ((val_main_cst_11_apply (F := Ideal) ix0).trans ofBits_pos_inf) b n z

/-- Below the reference's column minimum at (b, m) is below every table entry (b, n, m). -/
theorem le_fine_cols_iff (x : (⟨S8x3x4096, .f32⟩ : BufTy).Contents (Elt Ideal)) (y : (⟨S8x4096x3, .f32⟩ : BufTy).Contents (Elt Ideal))
    (b : Fin 8) (m : Fin 4096) (z : EReal) :
    z ≤ val_main_v39 (F := Ideal) x y (ix2 b m) ↔ ∀ n : Fin 4096, z ≤ val_main_v37 (F := Ideal) x y (ix3 b n m) := by
  unfold val_main_v39
  exact le_hostMin_mid_iff (a := 8) (b := 4096) (c := 4096) _ _ _ (by decide) _
    ((val_main_cst_12_apply (F := Ideal) ix0).trans ofBits_pos_inf) b m z

end Cert.ReferenceIdeal.Tables

end
-- ==== Proof.Agreement.lean ====
/-
  The kernel's arrays of minima against the reference's, and the two losses.

  The kernel keeps the column minima of each half of a cloud and the host merges the two halves by a minimum:
  the smaller of the least over the first half and the least over the second half is the least over all the
  points. The kernel lays the row minima out as (n, b) where the reference has (b, n); a sum over all entries
  does not see the difference. On real coordinates the reference's expanded, clamped table is the table of
  squared distances, so its row and column minima are the least squared distances too. With the four arrays
  agreeing in this sense the two losses are the same number.
-/
import proofs.«147973_j85152021610990_2_alg».proof.Proof.HostStretches
import proofs.«147973_j85152021610990_2_alg».proof.Proof.RefTables

noncomputable section

namespace Cert.Agreement

open Idealize.ShloMosaic Idealize.ShloMosaic.ValueIdx
open Cert.Chamfer Cert.MinReads Cert.MinAxes
open Cert.KernelIdeal.Stretches Cert.ReferenceIdeal.Read Cert.ReferenceIdeal.Tables

/-! ## Merging the halves -/

/-- The two halves' column minima merged are the column minima over all 2 H points. -/
theorem merge_halves {N : ℕ} (H : ℕ) (hN : N = 2 * H) (P : (⟨3, ![8, N, 3]⟩ : Shape).Idx → EReal)
    (Q : (⟨3, ![8, 3, 4096]⟩ : Shape).Idx → EReal) :
    mergeHalves (halfColMins P Q H) = colMins P Q := by
  funext j
  obtain ⟨b, m, rfl⟩ : ∃ (b : Fin 8) (m : Fin 4096), j = ix2 b m := ⟨j 0, j 1, eq_ix2 j⟩
  show mergeHalves (halfColMins P Q H) (ix2 b m) = colMinAt P Q b m
  refine eq_of_forall_le_iff fun z => ?_
  unfold mergeHalves
  rw [le_hostMin_lead_iff (a := 2) (b := 8) (c := 4096) _ _ _ (by decide) _ ofBits_pos_inf b m z, le_colMinAt_iff]
  constructor
  · intro hh n
    have hn := n.isLt
    by_cases h1 : n.val < H
    · have h0 : z ≤ colMinOn P Q ((0 : Fin 2).val * H) H b m := hh 0
      exact (le_colMinOn_iff P Q _ H b m z).mp h0 n (by simp) (by simpa using h1)
    · have h0 : z ≤ colMinOn P Q ((1 : Fin 2).val * H) H b m := hh 1
      exact (le_colMinOn_iff P Q _ H b m z).mp h0 n (by simp; omega) (by simp; omega)
  · intro hall k
    show z ≤ colMinOn P Q (k.val * H) H b m
    exact (le_colMinOn_iff P Q _ H b m z).mpr fun n _ _ => hall n

/-! ## A sum over all entries does not see the layout -/

/-- The host's sum over all entries of an array [N, 8] and of its re-laying [8, N] agree. -/
theorem sum_relaid {N : ℕ} (r : FVec Ideal ⟨2, ![N, 8]⟩ .f32) (r' : FVec Ideal ⟨2, ![8, N]⟩ .f32)
    (h : ∀ n b, r (ix2 n b) = r' (ix2 b n)) (z : FVec Ideal ⟨0, ![]⟩ .f32)
    (hr : (⟨2, ![N, 8]⟩ : Shape).ReducesTo [0, 1] ⟨0, ![]⟩) (hr' : (⟨2, ![8, N]⟩ : Shape).ReducesTo [0, 1] ⟨0, ![]⟩)
    (hu : 0 < (⟨0, ![]⟩ : Shape).numel) :
    Host.reduceAdd (F := Ideal) r z hr hu = Host.reduceAdd (F := Ideal) r' z hr' hu := by
  funext i
  simp only [Host.reduceAdd, Ideal.hostReduceAdd_def]
  rw [Ideal.hostReduceAdd_total hr (fun b => b.elim0), Ideal.hostReduceAdd_total hr' (fun b => b.elim0), sum_idx2, sum_idx2,
    Finset.sum_comm]
  simp only [h]

/-! ## The coarse cloud: the reference's minima are the least squared distances -/

section Coarse
variable (x : FVec Ideal ⟨3, ![8, 3, 1024]⟩ .f32) (y : FVec Ideal ⟨3, ![8, 4096, 3]⟩ .f32)
  (hx : ∀ i, ∃ r : ℝ, x i = r) (hy : ∀ i, ∃ r : ℝ, y i = r)
  (hP : (⟨3, ![8, 3, 1024]⟩ : Shape).Transposes [0, 2, 1] ⟨3, ![8, 1024, 3]⟩)
  (hQ : (⟨3, ![8, 4096, 3]⟩ : Shape).Transposes [0, 2, 1] ⟨3, ![8, 3, 4096]⟩)

include hx hy in
/-- On real coordinates the reference's table entry is the squared distance of the re-laid arrays. -/
theorem coarse_table_eq (b : Fin 8) (n : Fin 1024) (m : Fin 4096) :
    val_main_v19 (F := Ideal) x y (ix3 b n m)
      = distAt (transpose ⟨3, ![8, 1024, 3]⟩ [0, 2, 1] x hP) (transpose ⟨3, ![8, 3, 4096]⟩ [0, 2, 1] y hQ) b n m := by
  rw [coarse_table, distAt_relaid]
  obtain ⟨a0, e0⟩ := hx (ix3 b (0 : Fin 3) n)
  obtain ⟨a1, e1⟩ := hx (ix3 b (1 : Fin 3) n)
  obtain ⟨a2, e2⟩ := hx (ix3 b (2 : Fin 3) n)
  obtain ⟨b0, f0⟩ := hy (ix3 b m (0 : Fin 3))
  obtain ⟨b1, f1⟩ := hy (ix3 b m (1 : Fin 3))
  obtain ⟨b2, f2⟩ := hy (ix3 b m (2 : Fin 3))
  rw [e0, e1, e2, f0, f1, f2]
  exact sqDistExpanded_eq a0 a1 a2 b0 b1 b2

include hx hy in
/-- The reference's row minimum at (b, n) is the least squared distance from point n. -/
theorem coarse_rows_eq (b : Fin 8) (n : Fin 1024) :
    val_main_v20 (F := Ideal) x y (ix2 b n)
      = rowMinAt (transpose ⟨3, ![8, 1024, 3]⟩ [0, 2, 1] x hP) (transpose ⟨3, ![8, 3, 4096]⟩ [0, 2, 1] y hQ) b n := by
  refine eq_of_forall_le_iff fun z => ?_
  rw [le_coarse_rows_iff, le_rowMinAt_iff]
  exact forall_congr' fun m => by rw [coarse_table_eq x y hx hy hP hQ b n m]

include hx hy in
/-- The reference's column minima are the least squared distances to each target. -/
theorem coarse_cols_eq :
    val_main_v21 (F := Ideal) x y
      = colMins (transpose ⟨3, ![8, 1024, 3]⟩ [0, 2, 1] x hP) (transpose ⟨3, ![8, 3, 4096]⟩ [0, 2, 1] y hQ) := by
  funext j
  obtain ⟨b, m, rfl⟩ : ∃ (b : Fin 8) (m : Fin 4096), j = ix2 b m := ⟨j 0, j 1, eq_ix2 j⟩
  show _ = colMinAt _ _ b m
  refine eq_of_forall_le_iff fun z => ?_
  rw [le_coarse_cols_iff, le_colMinAt_iff]
  exact forall_congr' fun n => by rw [coarse_table_eq x y hx hy hP hQ b n m]

end Coarse

/-! ## The fine cloud: the reference's minima are the least squared distances -/

section Fine
variable (x : FVec Ideal ⟨3, ![8, 3, 4096]⟩ .f32) (y : FVec Ideal ⟨3, ![8, 4096, 3]⟩ .f32)
  (hx : ∀ i, ∃ r : ℝ, x i = r) (hy : ∀ i, ∃ r : ℝ, y i = r)
  (hP : (⟨3, ![8, 3, 4096]⟩ : Shape).Transposes [0, 2, 1] ⟨3, ![8, 4096, 3]⟩)
  (hQ : (⟨3, ![8, 4096, 3]⟩ : Shape).Transposes [0, 2, 1] ⟨3, ![8, 3, 4096]⟩)

include hx hy in
/-- On real coordinates the reference's table entry is the squared distance of the re-laid arrays. -/
theorem fine_table_eq (b : Fin 8) (n : Fin 4096) (m : Fin 4096) :
    val_main_v37 (F := Ideal) x y (ix3 b n m)
      = distAt (transpose ⟨3, ![8, 4096, 3]⟩ [0, 2, 1] x hP) (transpose ⟨3, ![8, 3, 4096]⟩ [0, 2, 1] y hQ) b n m := by
  rw [fine_table, distAt_relaid]
  obtain ⟨a0, e0⟩ := hx (ix3 b (0 : Fin 3) n)
  obtain ⟨a1, e1⟩ := hx (ix3 b (1 : Fin 3) n)
  obtain ⟨a2, e2⟩ := hx (ix3 b (2 : Fin 3) n)
  obtain ⟨b0, f0⟩ := hy (ix3 b m (0 : Fin 3))
  obtain ⟨b1, f1⟩ := hy (ix3 b m (1 : Fin 3))
  obtain ⟨b2, f2⟩ := hy (ix3 b m (2 : Fin 3))
  rw [e0, e1, e2, f0, f1, f2]
  exact sqDistExpanded_eq a0 a1 a2 b0 b1 b2

include hx hy in
/-- The reference's row minimum at (b, n) is the least squared distance from point n. -/
theorem fine_rows_eq (b : Fin 8) (n : Fin 4096) :
    val_main_v38 (F := Ideal) x y (ix2 b n)
      = rowMinAt (transpose ⟨3, ![8, 4096, 3]⟩ [0, 2, 1] x hP) (transpose ⟨3, ![8, 3, 4096]⟩ [0, 2, 1] y hQ) b n := by
  refine eq_of_forall_le_iff fun z => ?_
  rw [le_fine_rows_iff, le_rowMinAt_iff]
  exact forall_congr' fun m => by rw [fine_table_eq x y hx hy hP hQ b n m]

include hx hy in
/-- The reference's column minima are the least squared distances to each target. -/
theorem fine_cols_eq :
    val_main_v39 (F := Ideal) x y
      = colMins (transpose ⟨3, ![8, 4096, 3]⟩ [0, 2, 1] x hP) (transpose ⟨3, ![8, 3, 4096]⟩ [0, 2, 1] y hQ) := by
  funext j
  obtain ⟨b, m, rfl⟩ : ∃ (b : Fin 8) (m : Fin 4096), j = ix2 b m := ⟨j 0, j 1, eq_ix2 j⟩
  show _ = colMinAt _ _ b m
  refine eq_of_forall_le_iff fun z => ?_
  rw [le_fine_cols_iff, le_colMinAt_iff]
  exact forall_congr' fun n => by rw [fine_table_eq x y hx hy hP hQ b n m]

end Fine

/-! ## The two losses -/

/-- The kernel's loss of the least squared distances of the re-laid clouds is the reference's result. -/
theorem loss_eq (x0 x1 : FVec Ideal ⟨3, ![8, 10, 3]⟩ .f32) (x2 : FVec Ideal ⟨3, ![8, 3, 1024]⟩ .f32)
    (x3 : FVec Ideal ⟨3, ![8, 3, 4096]⟩ .f32) (x4 : FVec Ideal ⟨3, ![8, 4096, 3]⟩ .f32)
    (h2 : ∀ i, ∃ r : ℝ, x2 i = r) (h3 : ∀ i, ∃ r : ℝ, x3 i = r) (h4 : ∀ i, ∃ r : ℝ, x4 i = r)
    (hP0 : (⟨3, ![8, 3, 1024]⟩ : Shape).Transposes [0, 2, 1] ⟨3, ![8, 1024, 3]⟩)
    (hP1 : (⟨3, ![8, 3, 4096]⟩ : Shape).Transposes [0, 2, 1] ⟨3, ![8, 4096, 3]⟩)
    (hQ : (⟨3, ![8, 4096, 3]⟩ : Shape).Transposes [0, 2, 1] ⟨3, ![8, 3, 4096]⟩) :
    lossOf (keypointTerm x0 x1)
        (rowMins (transpose ⟨3, ![8, 1024, 3]⟩ [0, 2, 1] x2 hP0) (transpose ⟨3, ![8, 3, 4096]⟩ [0, 2, 1] x4 hQ))
        (mergeHalves (halfColMins (transpose ⟨3, ![8, 1024, 3]⟩ [0, 2, 1] x2 hP0) (transpose ⟨3, ![8, 3, 4096]⟩ [0, 2, 1] x4 hQ) 512))
        (rowMins (transpose ⟨3, ![8, 4096, 3]⟩ [0, 2, 1] x3 hP1) (transpose ⟨3, ![8, 3, 4096]⟩ [0, 2, 1] x4 hQ))
        (mergeHalves (halfColMins (transpose ⟨3, ![8, 4096, 3]⟩ [0, 2, 1] x3 hP1) (transpose ⟨3, ![8, 3, 4096]⟩ [0, 2, 1] x4 hQ) 2048))
      = val_main_v51 (F := Ideal) x0 x1 x2 x3 x4 := by
  rw [merge_halves 512 rfl, merge_halves 2048 rfl, ← coarse_cols_eq x2 x4 h2 h4 hP0 hQ, ← fine_cols_eq x3 x4 h3 h4 hP1 hQ]
  unfold lossOf val_main_v51 val_main_v50 val_main_v49 val_main_v44 val_main_v41 val_main_v43 val_main_v46 val_main_v48
    val_main_v40 val_main_v42 val_main_v45 val_main_v47
  rw [sum_relaid (rowMins (transpose ⟨3, ![8, 1024, 3]⟩ [0, 2, 1] x2 hP0) (transpose ⟨3, ![8, 3, 4096]⟩ [0, 2, 1] x4 hQ))
      (val_main_v20 (F := Ideal) x2 x4) (fun n b => (coarse_rows_eq x2 x4 h2 h4 hP0 hQ b n).symm),
    sum_relaid (rowMins (transpose ⟨3, ![8, 4096, 3]⟩ [0, 2, 1] x3 hP1) (transpose ⟨3, ![8, 3, 4096]⟩ [0, 2, 1] x4 hQ))
      (val_main_v38 (F := Ideal) x3 x4) (fun n b => (fine_rows_eq x3 x4 h3 h4 hP1 hQ b n).symm)]
  rfl

end Cert.Agreement

end
-- ==== Proof.FiniteInputs.lean ====
/-
  The precondition, decoded: every coordinate of the three point clouds is a real number.

  The precondition tests each input array entry by entry — the absolute value is below plus infinity — and joins
  the tests by and. An extended real whose absolute value is below plus infinity is neither infinity, so it is
  a real number.
-/
import proofs.«147973_j85152021610990_2_alg».proof.Pre_finite_inputs
import proofs.«147973_j85152021610990_2_alg».proof.Proof.Gen.Pre_finite_inputs
import proofs.«147973_j85152021610990_2_alg».proof.Proof.LibMinReads
import Idealize.ShloMosaic.Lib.ReduceAll
import Idealize.ShloMosaic.Lib.ValueIdx
import Idealize.ShloMosaic.Lib.Pipeline.Value
import Idealize.ShloMosaic.PureOps.Ideal

noncomputable section

namespace Cert.Pre_finite_inputs.Decode

open Cert.Pre_finite_inputs Idealize.ShloMosaic Idealize.ShloMosaic.ValueIdx

instance : Subsingleton S_.Idx := ⟨fun a b => funext fun d => d.elim0⟩

/-- An extended real whose absolute value is below plus infinity is a real number. -/
theorem real_of_lt_top (x : EReal) (h : Ideal.cmp .olt (max x (-x)) ⊤ = 1#1) : ∃ r : ℝ, x = r := by
  induction x using EReal.rec
  · exfalso; revert h; simp [Ideal.cmp]
  · exact ⟨_, rfl⟩
  · exfalso; revert h; simp [Ideal.cmp]

/-- One array's test: if every entry's absolute value is below plus infinity, every entry is a real number. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1) (i : s.Idx) : ∃ r : ℝ, a i = r := by
  have h := Host.reduce_andi_all _ _ hr hu ix0 e i
  have hb' : broadcastInDim s ![] hb (constant (F := Ideal) S_ .f32 0x7F800000#32) i = (⊤ : EReal) :=
    (broadcastInDim_apply _ hb _ i ix0 (fun a => a.elim0)).trans Cert.MinReads.ofBits_pos_inf
  refine real_of_lt_top (a i) ?_
  have h' : Ideal.cmp .olt (max (a i) (-(a i))) (broadcastInDim s ![] hb (constant (F := Ideal) S_ .f32 0x7F800000#32) i) = 1#1 := h
  rwa [hb'] at h'

/-- Under the precondition the coarse cloud, the fine cloud and the targets hold real numbers. -/
theorem clouds_real (a0 a1 : FVec Ideal S8x10x3 .f32) (a2 : FVec Ideal S8x3x1024 .f32) (a3 : FVec Ideal S8x3x4096 .f32)
    (a4 : FVec Ideal S8x4096x3 .f32) (h : fn (F := Ideal) a0 a1 a2 a3 a4 = fun _ => 1#1) :
    (∀ i, ∃ r : ℝ, a2 i = r) ∧ (∀ i, ∃ r : ℝ, a3 i = r) ∧ (∀ i, ∃ r : ℝ, a4 i = r) := by
  have h0 := congrFun h ix0
  dsimp only [fn, fn_part1] at h0
  obtain ⟨h0123, h4⟩ := IntOp.andi_eq_one.mp h0
  obtain ⟨h012, h3⟩ := IntOp.andi_eq_one.mp h0123
  obtain ⟨h01, h2⟩ := IntOp.andi_eq_one.mp h012
  exact ⟨all_real a2 _ _ _ h2, all_real a3 _ _ _ h3, all_real a4 _ _ _ h4⟩

end Cert.Pre_finite_inputs.Decode

end
-- ==== Proof.lean ====
/-
  The certificate of a two-sided nearest-point loss: a tiled kernel against its plain reference.

  Both programs return a keypoint term plus, for a coarse cloud of 1024 points and a fine cloud of 4096 points
  per batch against 4096 target points, the mean over the cloud of each point's least squared distance to the
  targets plus the mean over the targets of each target's least squared distance to the cloud.

  The kernel computes a squared distance as the sum of the three squared coordinate differences, tile by tile
  of 128 points: each tile's row minima are final, and the column minima are accumulated over the tiles of
  each half of the cloud and the two halves merged afterwards. The reference expands the square — the two
  sums of squares minus twice the products, clamped at zero — over the whole cloud at once. On real
  coordinates, which the precondition gives, the two tables agree entry by entry; a minimum accumulated over
  tiles and halves is the minimum over all the points; and a mean does not see that the kernel lays its row
  minima out as (n, b) where the reference has (b, n). The kernel's idealization rewrote nothing.
-/
import proofs.«147973_j85152021610990_2_alg».proof.Defs
import proofs.«147973_j85152021610990_2_alg».proof.Proof.Gen.Kernel
import proofs.«147973_j85152021610990_2_alg».proof.Proof.Gen.Kernel.Frame
import proofs.«147973_j85152021610990_2_alg».proof.Proof.Gen.KernelIdeal
import proofs.«147973_j85152021610990_2_alg».proof.Proof.Gen.KernelIdeal.Frame
import proofs.«147973_j85152021610990_2_alg».proof.Proof.Gen.ReferenceIdeal
import proofs.«147973_j85152021610990_2_alg».proof.Proof.Gen.ReferenceIdeal.Read
import proofs.«147973_j85152021610990_2_alg».proof.Proof.Gen.Pre_finite_inputs
import proofs.«147973_j85152021610990_2_alg».proof.Proof.RunResult
import proofs.«147973_j85152021610990_2_alg».proof.Proof.Region0
import proofs.«147973_j85152021610990_2_alg».proof.Proof.Region1
import proofs.«147973_j85152021610990_2_alg».proof.Proof.Agreement
import proofs.«147973_j85152021610990_2_alg».proof.Proof.FiniteInputs
import Idealize.ShloMosaic.Adequacy
import Idealize.ShloMosaic.Init

noncomputable section

namespace Cert.Proof

open Idealize.ShloMosaic Idealize.ShloMosaic.TcCoe Idealize.SL.Sem

/-- What the kernel program leaves in its result buffer is what the reference computes from the same arguments,
    when the clouds hold real numbers. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) = fun _ => 1#1) :
    (Cert.KernelIdeal.Gen.W5 m ρ c (Proc.devRef .tc Cert.KernelIdeal.main_v22) : FVec Ideal Cert.KernelIdeal.S_ .f32)
      = Cert.ReferenceIdeal.Read.val_main_v51 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  obtain ⟨h2, h3, h4⟩ := Cert.Pre_finite_inputs.Decode.clouds_real _ _ _ _ _ hpre
  rw [Cert.KernelIdeal.Stretches.result_read, Cert.KernelIdeal.Region0.rows_final, Cert.KernelIdeal.Region0.cols_final,
    Cert.KernelIdeal.Region1.rows_final, Cert.KernelIdeal.Region1.cols_final]
  dsimp only [Cert.KernelIdeal.Region0.pts, Cert.KernelIdeal.Region0.tgt, Cert.KernelIdeal.Region1.pts, Cert.KernelIdeal.Region1.tgt]
  rw [Cert.KernelIdeal.Stretches.entry0_pts, Cert.KernelIdeal.Stretches.entry0_tgt, Cert.KernelIdeal.Stretches.entry1_pts,
    Cert.KernelIdeal.Stretches.entry1_tgt]
  exact Cert.Agreement.loss_eq _ _ _ _ _ h2 h3 h4 _ _ _

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run to the same result. -/
theorem algebraic : Cert.algebraic_KernelIdeal_ReferenceIdeal := by
  intro m ρ m' ρ' hpre hagree
  refine ⟨fun c => Cert.KernelIdeal.Gen.W5 m ρ c (Proc.devRef .tc Cert.KernelIdeal.main_v22),
    Cert.KernelIdeal.Result.run (F := Ideal) m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v51_eq, (hagree c).1, (hagree c).2.1, (hagree c).2.2.1, (hagree c).2.2.2.1,
    (hagree c).2.2.2.2]
  exact (result_eq m ρ c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
